-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x320x128 : Shape := ⟨3, ![2, 320, 128]⟩
abbrev S320x128 : Shape := ⟨2, ![320, 128]⟩
abbrev S_ : Shape := ⟨0, ![]⟩

class Facts : Prop where
  bcast_S_S2x320x128 : S_.BroadcastsInDim S2x320x128 (![] : Fin 0 → Fin S2x320x128.rank)
  reducesTo_S2x320x128_S_d0_1_2 : S2x320x128.ReducesTo [0, 1, 2] S_
  h_S_ : 0 < S_.numel
  bcast_S_S320x128 : S_.BroadcastsInDim S320x128 (![] : Fin 0 → Fin S320x128.rank)
  reducesTo_S320x128_S_d0_1 : S320x128.ReducesTo [0, 1] S_

variable [Facts]

def fn {F : FTy → Type} [FloatOps F] (main_arg0 : FVec F S2x320x128 .f32) (main_arg1 : FVec F S320x128 .f32) : IVec S_ 1 :=
  let main_v0 : FVec F S2x320x128 .f32 := Host.absf main_arg0
  let main_cst : FVec F S_ .f32 := constant S_ .f32 0x7F800000#32
  let main_v1 : FVec F S2x320x128 .f32 := broadcastInDim S2x320x128 ![] bcast_S_S2x320x128 main_cst
  let main_v2 : IVec S2x320x128 1 := cmpf .olt main_v0 main_v1
  let main_c : IVec S_ 1 := constantI S_ 1 1#1
  let main_v3 : IVec S_ 1 := (fun x v => Host.reduce IntOp.andi x v reducesTo_S2x320x128_S_d0_1_2 h_S_) main_v2 main_c
  let main_v4 : FVec F S320x128 .f32 := Host.absf main_arg1
  let main_cst_0 : FVec F S_ .f32 := constant S_ .f32 0x7F800000#32
  let main_v5 : FVec F S320x128 .f32 := broadcastInDim S320x128 ![] bcast_S_S320x128 main_cst_0
  let main_v6 : IVec S320x128 1 := cmpf .olt main_v4 main_v5
  let main_c_1 : IVec S_ 1 := constantI S_ 1 1#1
  let main_v7 : IVec S_ 1 := (fun x v => Host.reduce IntOp.andi x v reducesTo_S320x128_S_d0_1 h_S_) main_v6 main_c_1
  let main_v8 : IVec S_ 1 := andi main_v3 main_v7
  main_v8
-- ==== Kernel.lean ====
abbrev S2x320x128 : Shape := ⟨3, ![2, 320, 128]⟩
abbrev S320x128 : Shape := ⟨2, ![320, 128]⟩
abbrev S_ : Shape := ⟨0, ![]⟩
abbrev S2x320 : Shape := ⟨2, ![2, 320]⟩
abbrev S2x320x1 : Shape := ⟨3, ![2, 320, 1]⟩
abbrev S2x1x320 : Shape := ⟨3, ![2, 1, 320]⟩
abbrev S2x320x320 : Shape := ⟨3, ![2, 320, 320]⟩
abbrev S2x128x320 : Shape := ⟨3, ![2, 128, 320]⟩
abbrev S320x320 : Shape := ⟨2, ![320, 320]⟩
abbrev S320 : Shape := ⟨1, ![320]⟩
abbrev S320x1 : Shape := ⟨2, ![320, 1]⟩
abbrev S1x320 : Shape := ⟨2, ![1, 320]⟩
abbrev S128x320 : Shape := ⟨2, ![128, 320]⟩
abbrev S16x128 : Shape := ⟨2, ![16, 128]⟩
abbrev S32x320 : Shape := ⟨2, ![32, 320]⟩
abbrev S8x128 : Shape := ⟨2, ![8, 128]⟩
abbrev S32x128 : Shape := ⟨2, ![32, 128]⟩
abbrev S32x1x128 : Shape := ⟨3, ![32, 1, 128]⟩
abbrev S32x320x1 : Shape := ⟨3, ![32, 320, 1]⟩
abbrev S32x320x128 : Shape := ⟨3, ![32, 320, 128]⟩
abbrev S32x64 : Shape := ⟨2, ![32, 64]⟩
abbrev S32x1x64 : Shape := ⟨3, ![32, 1, 64]⟩
abbrev S32x320x64 : Shape := ⟨3, ![32, 320, 64]⟩
abbrev S32 : Shape := ⟨1, ![32]⟩
abbrev S32x1 : Shape := ⟨2, ![32, 1]⟩
abbrev S1 : Shape := ⟨1, ![1]⟩
abbrev S1x1 : Shape := ⟨2, ![1, 1]⟩

abbrev nBuf : Space → Nat
  | .hbm => 101
  | .vmem => 6
  | .smem => 0
  | _ => 0

abbrev bufTy : (tb : Table) → Fin (tcTables nBuf tb) → BufTy
  | .hbm, ⟨0, _⟩ => ⟨S2x320x128, .f32⟩
  | .hbm, ⟨1, _⟩ => ⟨S320x128, .f32⟩
  | .hbm, ⟨2, _⟩ => ⟨S2x320x128, .f32⟩
  | .hbm, ⟨3, _⟩ => ⟨S_, .f32⟩
  | .hbm, ⟨4, _⟩ => ⟨S2x320, .f32⟩
  | .hbm, ⟨5, _⟩ => ⟨S2x320x1, .f32⟩
  | .hbm, ⟨6, _⟩ => ⟨S2x320x1, .f32⟩
  | .hbm, ⟨7, _⟩ => ⟨S_, .f32⟩
  | .hbm, ⟨8, _⟩ => ⟨S_, .f32⟩
  | .hbm, ⟨9, _⟩ => ⟨S2x320x1, .f32⟩
  | .hbm, ⟨10, _⟩ => ⟨S2x320x1, .f32⟩
  | .hbm, ⟨11, _⟩ => ⟨S2x320x128, .f32⟩
  | .hbm, ⟨12, _⟩ => ⟨S2x320x128, .f32⟩
  | .hbm, ⟨13, _⟩ => ⟨S2x320x128, .f32⟩
  | .hbm, ⟨14, _⟩ => ⟨S_, .f32⟩
  | .hbm, ⟨15, _⟩ => ⟨S2x320, .f32⟩
  | .hbm, ⟨16, _⟩ => ⟨S2x320x1, .f32⟩
  | .hbm, ⟨17, _⟩ => ⟨S2x1x320, .f32⟩
  | .hbm, ⟨18, _⟩ => ⟨S2x320x320, .f32⟩
  | .hbm, ⟨19, _⟩ => ⟨S2x320x320, .f32⟩
  | .hbm, ⟨20, _⟩ => ⟨S2x320x320, .f32⟩
  | .hbm, ⟨21, _⟩ => ⟨S2x128x320, .f32⟩
  | .hbm, ⟨22, _⟩ => ⟨S2x320x320, .f32⟩
  | .hbm, ⟨23, _⟩ => ⟨S_, .f32⟩
  | .hbm, ⟨24, _⟩ => ⟨S2x320x320, .f32⟩
  | .hbm, ⟨25, _⟩ => ⟨S2x320x320, .f32⟩
  | .hbm, ⟨26, _⟩ => ⟨S2x320x320, .f32⟩
  | .hbm, ⟨27, _⟩ => ⟨S_, .f32⟩
  | .hbm, ⟨28, _⟩ => ⟨S2x320x320, .f32⟩
  | .hbm, ⟨29, _⟩ => ⟨S2x320x320, .f32⟩
  | .hbm, ⟨30, _⟩ => ⟨S_, .f32⟩
  | .hbm, ⟨31, _⟩ => ⟨S2x320x320, .f32⟩
  | .hbm, ⟨32, _⟩ => ⟨S2x320x320, .f32⟩
  | .hbm, ⟨33, _⟩ => ⟨S2x320x320, .f32⟩
  | .hbm, ⟨34, _⟩ => ⟨S_, .f32⟩
  | .hbm, ⟨35, _⟩ => ⟨S320x320, .f32⟩
  | .hbm, ⟨36, _⟩ => ⟨S_, .f32⟩
  | .hbm, ⟨37, _⟩ => ⟨S320x320, .f32⟩
  | .hbm, ⟨38, _⟩ => ⟨S320x320, .f32⟩
  | .hbm, ⟨39, _⟩ => ⟨S_, .f32⟩
  | .hbm, ⟨40, _⟩ => ⟨S320x320, .f32⟩
  | .hbm, ⟨41, _⟩ => ⟨S320x320, .f32⟩
  | .hbm, ⟨42, _⟩ => ⟨S_, .f32⟩
  | .hbm, ⟨43, _⟩ => ⟨S320x320, .f32⟩
  | .hbm, ⟨44, _⟩ => ⟨S320x320, .f32⟩
  | .hbm, ⟨45, _⟩ => ⟨S320x320, .f32⟩
  | .hbm, ⟨46, _⟩ => ⟨S320x320, .f32⟩
  | .hbm, ⟨47, _⟩ => ⟨S_, .f32⟩
  | .hbm, ⟨48, _⟩ => ⟨S320x320, .f32⟩
  | .hbm, ⟨49, _⟩ => ⟨S320x320, .f32⟩
  | .hbm, ⟨50, _⟩ => ⟨S_, .f32⟩
  | .hbm, ⟨51, _⟩ => ⟨S320x320, .f32⟩
  | .hbm, ⟨52, _⟩ => ⟨S320x320, .f32⟩
  | .hbm, ⟨53, _⟩ => ⟨S320x128, .f32⟩
  | .hbm, ⟨54, _⟩ => ⟨S_, .f32⟩
  | .hbm, ⟨55, _⟩ => ⟨S320, .f32⟩
  | .hbm, ⟨56, _⟩ => ⟨S320x1, .f32⟩
  | .hbm, ⟨57, _⟩ => ⟨S320x1, .f32⟩
  | .hbm, ⟨58, _⟩ => ⟨S_, .f32⟩
  | .hbm, ⟨59, _⟩ => ⟨S_, .f32⟩
  | .hbm, ⟨60, _⟩ => ⟨S320x1, .f32⟩
  | .hbm, ⟨61, _⟩ => ⟨S320x1, .f32⟩
  | .hbm, ⟨62, _⟩ => ⟨S320x128, .f32⟩
  | .hbm, ⟨63, _⟩ => ⟨S320x128, .f32⟩
  | .hbm, ⟨64, _⟩ => ⟨S320x128, .f32⟩
  | .hbm, ⟨65, _⟩ => ⟨S_, .f32⟩
  | .hbm, ⟨66, _⟩ => ⟨S320, .f32⟩
  | .hbm, ⟨67, _⟩ => ⟨S320x1, .f32⟩
  | .hbm, ⟨68, _⟩ => ⟨S1x320, .f32⟩
  | .hbm, ⟨69, _⟩ => ⟨S320x320, .f32⟩
  | .hbm, ⟨70, _⟩ => ⟨S320x320, .f32⟩
  | .hbm, ⟨71, _⟩ => ⟨S320x320, .f32⟩
  | .hbm, ⟨72, _⟩ => ⟨S128x320, .f32⟩
  | .hbm, ⟨73, _⟩ => ⟨S320x320, .f32⟩
  | .hbm, ⟨74, _⟩ => ⟨S_, .f32⟩
  | .hbm, ⟨75, _⟩ => ⟨S320x320, .f32⟩
  | .hbm, ⟨76, _⟩ => ⟨S320x320, .f32⟩
  | .hbm, ⟨77, _⟩ => ⟨S320x320, .f32⟩
  | .hbm, ⟨78, _⟩ => ⟨S_, .f32⟩
  | .hbm, ⟨79, _⟩ => ⟨S320x320, .f32⟩
  | .hbm, ⟨80, _⟩ => ⟨S320x320, .f32⟩
  | .hbm, ⟨81, _⟩ => ⟨S_, .f32⟩
  | .hbm, ⟨82, _⟩ => ⟨S320x320, .f32⟩
  | .hbm, ⟨83, _⟩ => ⟨S320x320, .f32⟩
  | .hbm, ⟨84, _⟩ => ⟨S320x320, .f32⟩
  | .hbm, ⟨85, _⟩ => ⟨S16x128, .f32⟩
  | .hbm, ⟨86, _⟩ => ⟨S1x1, .f32⟩
  | .hbm, ⟨87, _⟩ => ⟨S_, .f32⟩
  | .hbm, ⟨88, _⟩ => ⟨S1x1, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .i1⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .local _ .vmem, ⟨0, _⟩ => ⟨S32x320, .f32⟩
  | .local _ .vmem, ⟨1, _⟩ => ⟨S32x320, .f32⟩
  | .local _ .vmem, ⟨2, _⟩ => ⟨S32x320, .f32⟩
  | .local _ .vmem, ⟨3, _⟩ => ⟨S32x320, .f32⟩
  | .local _ .vmem, ⟨4, _⟩ => ⟨S8x128, .f32⟩
  | .local _ .vmem, ⟨5, _⟩ => ⟨S8x128, .f32⟩
  | _, _ => ⟨S2x320x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_call2_v0 : Ref sig .tc := ⟨.hbm, 53, rfl⟩
abbrev main_call2_cst : Ref sig .tc := ⟨.hbm, 54, rfl⟩
abbrev main_call2_v1 : Ref sig .tc := ⟨.hbm, 55, rfl⟩
abbrev main_call2_v2 : Ref sig .tc := ⟨.hbm, 56, rfl⟩
abbrev main_v34 : Ref sig .tc := ⟨.hbm, 57, rfl⟩
abbrev main_cst_10 : Ref sig .tc := ⟨.hbm, 58, rfl⟩
abbrev main_call3_v0 : Ref sig .tc := ⟨.hbm, 59, rfl⟩
abbrev main_call3_v1 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_13 : Ref sig .tc := ⟨.hbm, 78, rfl⟩
abbrev main_v50 : Ref sig .tc := ⟨.hbm, 79, rfl⟩
abbrev main_v51 : Ref sig .tc := ⟨.hbm, 80, rfl⟩
abbrev main_cst_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_15 : Ref sig .tc := ⟨.hbm, 91, rfl⟩
abbrev main_v61 : Ref sig .tc := ⟨.hbm, 92, rfl⟩
abbrev main_cst_16 : Ref sig .tc := ⟨.hbm, 93, rfl⟩
abbrev main_v62 : Ref sig .tc := ⟨.hbm, 94, rfl⟩
abbrev main_cst_17 : Ref sig .tc := ⟨.hbm, 95, rfl⟩
abbrev main_v63 : Ref sig .tc := ⟨.hbm, 96, rfl⟩
abbrev main_v64 : Ref sig .tc := ⟨.hbm, 97, rfl⟩
abbrev main_cst_18 : Ref sig .tc := ⟨.hbm, 98, rfl⟩
abbrev main_call4_v0 : Ref sig .tc := ⟨.hbm, 99, rfl⟩
abbrev main_v65 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S2x320x128_S2x320_d2 : S2x320x128.ReducesTo [2] S2x320
  h_S_ : 0 < S_.numel
  bcast_S2x320_S2x320x1_0_1 : S2x320.BroadcastsInDim S2x320x1 (![0, 1] : Fin 2 → Fin S2x320x1.rank)
  bcast_S_S2x320x1 : S_.BroadcastsInDim S2x320x1 (![] : Fin 0 → Fin S2x320x1.rank)
  bcast_S2x320x1_S2x320x128_0_1_2 : S2x320x1.BroadcastsInDim S2x320x128 (![0, 1, 2] : Fin 3 → Fin S2x320x128.rank)
  bcast_S2x320_S2x1x320_0_2 : S2x320.BroadcastsInDim S2x1x320 (![0, 2] : Fin 2 → Fin S2x1x320.rank)
  bcast_S2x320x1_S2x320x320_0_1_2 : S2x320x1.BroadcastsInDim S2x320x320 (![0, 1, 2] : Fin 3 → Fin S2x320x320.rank)
  bcast_S2x1x320_S2x320x320_0_1_2 : S2x1x320.BroadcastsInDim S2x320x320 (![0, 1, 2] : Fin 3 → Fin S2x320x320.rank)
  transposes_S2x320x128_S2x128x320_0_2_1 : S2x320x128.Transposes [0, 2, 1] S2x128x320
  bcast_S_S2x320x320 : S_.BroadcastsInDim S2x320x320 (![] : Fin 0 → Fin S2x320x320.rank)
  reducesTo_S2x320x320_S320x320_d0 : S2x320x320.ReducesTo [0] S320x320
  bcast_S_S320x320 : S_.BroadcastsInDim S320x320 (![] : Fin 0 → Fin S320x320.rank)
  reducesTo_S320x128_S320_d1 : S320x128.ReducesTo [1] S320
  bcast_S320_S320x1_0 : S320.BroadcastsInDim S320x1 (![0] : Fin 1 → Fin S320x1.rank)
  bcast_S_S320x1 : S_.BroadcastsInDim S320x1 (![] : Fin 0 → Fin S320x1.rank)
  bcast_S320x1_S320x128_0_1 : S320x1.BroadcastsInDim S320x128 (![0, 1] : Fin 2 → Fin S320x128.rank)
  bcast_S320_S1x320_1 : S320.BroadcastsInDim S1x320 (![1] : Fin 1 → Fin S1x320.rank)
  bcast_S320x1_S320x320_0_1 : S320x1.BroadcastsInDim S320x320 (![0, 1] : Fin 2 → Fin S320x320.rank)
  bcast_S1x320_S320x320_0_1 : S1x320.BroadcastsInDim S320x320 (![0, 1] : Fin 2 → Fin S320x320.rank)
  transposes_S320x128_S128x320_1_0 : S320x128.Transposes [1, 0] S128x320
  inb_S8x128_S8x128_0_0 : ∀ a, (![0, 0] : Fin 2 → Nat) a + S8x128.size a ≤ S8x128.size a
  h_S8x128 : 0 < S8x128.numel
  inb_S32x320_S32x320_0_0 : ∀ a, (![0, 0] : Fin 2 → Nat) a + S32x320.size a ≤ S32x320.size a
  h_S32x320 : 0 < S32x320.numel
  shapeCasts_S32x320_S32x320 : S32x320.ShapeCasts S32x320
  slices_S32x320_o0_0_S32x128 : S32x320.Slices ![0, 0] S32x128
  shapeCasts_S32x128_S32x1x128 : S32x128.ShapeCasts S32x1x128
  shapeCasts_S32x320_S32x320x1 : S32x320.ShapeCasts S32x320x1
  broadcasts_S32x1x128_S32x320x128 : S32x1x128.Broadcasts S32x320x128
  broadcasts_S32x320x1_S32x320x128 : S32x320x1.Broadcasts S32x320x128
  reduces_S32x320x128_S32x320 : S32x320x128.Reduces [2] S32x320
  slices_S32x320_o0_128_S32x128 : S32x320.Slices ![0, 128] S32x128
  slices_S32x320_o0_256_S32x64 : S32x320.Slices ![0, 256] S32x64
  shapeCasts_S32x64_S32x1x64 : S32x64.ShapeCasts S32x1x64
  broadcasts_S32x1x64_S32x320x64 : S32x1x64.Broadcasts S32x320x64
  broadcasts_S32x320x1_S32x320x64 : S32x320x1.Broadcasts S32x320x64
  reduces_S32x320x64_S32x320 : S32x320x64.Reduces [2] S32x320
  natLt_1_32 : 1 < 32
  reduces_S32x320_S32 : S32x320.Reduces [1] S32
  shapeCasts_S32_S32x1 : S32.ShapeCasts S32x1
  reduces_S32x1_S1 : S32x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  slices_S16x128_S1x1_0_0 : S16x128.Slices ![0, 0] S1x1
  shapeCasts_S1x1_S_ : S1x1.ShapeCasts S_
  slices_S16x128_S1x1_8_0 : S16x128.Slices ![8, 0] S1x1
  reducesTo_S320x320_S_d0_1 : S320x320.ReducesTo [0, 1] S_
  dot_S2x320x128_S2x128x320_S2x320x320_2_1_1_2_0_0_wf : DotDims.WF S2x320x128 S2x128x320 S2x320x320 [2] [1] [1] [2] [0] [0]
  dot_S320x128_S128x320_S320x320_1_0_0_1_n_n_wf : DotDims.WF S320x128 S128x320 S320x320 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x320.size a ≤ S320x320.size a
  hwx0_0 : ∀ i : grid0.Coords, EltTy.bits .f32 = 32 ∨ (Rect.block (s := S320x320) S32x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x320.size a ≤ S320x320.size a
  hwx0_1 : ∀ i : grid0.Coords, EltTy.bits .f32 = 32 ∨ (Rect.block (s := S320x320) S32x320.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

def dot_S2x320x128_S2x128x320_S2x320x320_2_1_1_2_0_0 : DotDims S2x320x128 S2x128x320 S2x320x320 where
  lhsContracting := [2]
  rhsContracting := [1]
  lhsNonContracting := [1]
  rhsNonContracting := [2]
  lhsBatch := [0]
  rhsBatch := [0]
  wf := dot_S2x320x128_S2x128x320_S2x320x320_2_1_1_2_0_0_wf
def dot_S320x128_S128x320_S320x320_1_0_0_1_n_n : DotDims S320x128 S128x320 S320x320 where
  lhsContracting := [1]
  rhsContracting := [0]
  lhsNonContracting := [0]
  rhsNonContracting := [1]
  lhsBatch := []
  rhsBatch := []
  wf := dot_S320x128_S128x320_S320x320_1_0_0_1_n_n_wf

abbrev win0_0 : Pipeline.Window sig grid0 :=
  Pipeline.Window.ofSpec (Memref.whole main_v54) S32x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S32x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x320x128 : Shape := ⟨3, ![2, 320, 128]⟩
abbrev S320x128 : Shape := ⟨2, ![320, 128]⟩
abbrev S_ : Shape := ⟨0, ![]⟩
abbrev S2x320 : Shape := ⟨2, ![2, 320]⟩
abbrev S2x320x1 : Shape := ⟨3, ![2, 320, 1]⟩
abbrev S2x1x320 : Shape := ⟨3, ![2, 1, 320]⟩
abbrev S2x320x320 : Shape := ⟨3, ![2, 320, 320]⟩
abbrev S2x128x320 : Shape := ⟨3, ![2, 128, 320]⟩
abbrev S320x320 : Shape := ⟨2, ![320, 320]⟩
abbrev S320x320x1 : Shape := ⟨3, ![320, 320, 1]⟩
abbrev S320x1x320 : Shape := ⟨3, ![320, 1, 320]⟩
abbrev S320x320x320 : Shape := ⟨3, ![320, 320, 320]⟩
abbrev S320 : Shape := ⟨1, ![320]⟩
abbrev S320x1 : Shape := ⟨2, ![320, 1]⟩
abbrev S1x320 : Shape := ⟨2, ![1, 320]⟩
abbrev S128x320 : Shape := ⟨2, ![128, 320]⟩

abbrev nBuf : Space → Nat
  | .hbm => 154
  | .vmem => 0
  | .smem => 0
  | _ => 0

abbrev hbmTy0_0 (i : Nat) : BufTy := match i % 128 with
  | 0 => ⟨S2x320x128, .f32⟩
  | 1 => ⟨S320x128, .f32⟩
  | 2 => ⟨S2x320x128, .f32⟩
  | 3 => ⟨S_, .f32⟩
  | 4 => ⟨S2x320, .f32⟩
  | 5 => ⟨S2x320x1, .f32⟩
  | 6 => ⟨S2x320x1, .f32⟩
  | 7 => ⟨S_, .f32⟩
  | 8 => ⟨S_, .f32⟩
  | 9 => ⟨S2x320x1, .f32⟩
  | 10 => ⟨S2x320x1, .f32⟩
  | 11 => ⟨S2x320x128, .f32⟩
  | 12 => ⟨S2x320x128, .f32⟩
  | 13 => ⟨S2x320x128, .f32⟩
  | 14 => ⟨S_, .f32⟩
  | 15 => ⟨S2x320, .f32⟩
  | 16 => ⟨S2x320x1, .f32⟩
  | 17 => ⟨S2x1x320, .f32⟩
  | 18 => ⟨S2x320x320, .f32⟩
  | 19 => ⟨S2x320x320, .f32⟩
  | 20 => ⟨S2x320x320, .f32⟩
  | 21 => ⟨S2x128x320, .f32⟩
  | 22 => ⟨S2x320x320, .f32⟩
  | 23 => ⟨S_, .f32⟩
  | 24 => ⟨S2x320x320, .f32⟩
  | 25 => ⟨S2x320x320, .f32⟩
  | 26 => ⟨S2x320x320, .f32⟩
  | 27 => ⟨S_, .f32⟩
  | 28 => ⟨S2x320x320, .f32⟩
  | 29 => ⟨S2x320x320, .f32⟩
  | 30 => ⟨S_, .f32⟩
  | 31 => ⟨S2x320x320, .f32⟩
  | 32 => ⟨S2x320x320, .f32⟩
  | 33 => ⟨S2x320x320, .f32⟩
  | 34 => ⟨S_, .f32⟩
  | 35 => ⟨S320x320, .f32⟩
  | 36 => ⟨S_, .f32⟩
  | 37 => ⟨S320x320, .f32⟩
  | 38 => ⟨S320x320, .f32⟩
  | 39 => ⟨S_, .f32⟩
  | 40 => ⟨S320x320, .f32⟩
  | 41 => ⟨S320x320, .f32⟩
  | 42 => ⟨S_, .f32⟩
  | 43 => ⟨S320x320, .f32⟩
  | 44 => ⟨S320x320, .f32⟩
  | 45 => ⟨S320x320, .f32⟩
  | 46 => ⟨S320x320, .f32⟩
  | 47 => ⟨S_, .f32⟩
  | 48 => ⟨S320x320, .f32⟩
  | 49 => ⟨S320x320, .f32⟩
  | 50 => ⟨S_, .f32⟩
  | 51 => ⟨S320x320, .f32⟩
  | 52 => ⟨S320x320, .f32⟩
  | 53 => ⟨S320x320x1, .f32⟩
  | 54 => ⟨S320x1x320, .f32⟩
  | 55 => ⟨S_, .f32⟩
  | 56 => ⟨S320x1x320, .f32⟩
  | 57 => ⟨S320x1x320, .f32⟩
  | 58 => ⟨S320x320x320, .f32⟩
  | 59 => ⟨S320x320x320, .f32⟩
  | 60 => ⟨S320x320x320, .f32⟩
  | 61 => ⟨S320x128, .f32⟩
  | 62 => ⟨S_, .f32⟩
  | 63 => ⟨S320, .f32⟩
  | 64 => ⟨S320x1, .f32⟩
  | 65 => ⟨S320x1, .f32⟩
  | 66 => ⟨S_, .f32⟩
  | 67 => ⟨S_, .f32⟩
  | 68 => ⟨S320x1, .f32⟩
  | 69 => ⟨S320x1, .f32⟩
  | 70 => ⟨S320x128, .f32⟩
  | 71 => ⟨S320x128, .f32⟩
  | 72 => ⟨S320x128, .f32⟩
  | 73 => ⟨S_, .f32⟩
  | 74 => ⟨S320, .f32⟩
  | 75 => ⟨S320x1, .f32⟩
  | 76 => ⟨S1x320, .f32⟩
  | 77 => ⟨S320x320, .f32⟩
  | 78 => ⟨S320x320, .f32⟩
  | 79 => ⟨S320x320, .f32⟩
  | 80 => ⟨S128x320, .f32⟩
  | 81 => ⟨S320x320, .f32⟩
  | 82 => ⟨S_, .f32⟩
  | 83 => ⟨S320x320, .f32⟩
  | 84 => ⟨S320x320, .f32⟩
  | 85 => ⟨S320x320, .f32⟩
  | 86 => ⟨S_, .f32⟩
  | 87 => ⟨S320x320, .f32⟩
  | 88 => ⟨S320x320, .f32⟩
  | 89 => ⟨S_, .f32⟩
  | 90 => ⟨S320x320, .f32⟩
  | 91 => ⟨S320x320, .f32⟩
  | 92 => ⟨S320x320, .f32⟩
  | 93 => ⟨S320x1x320, .f32⟩
  | 94 => ⟨S320x320x1, .f32⟩
  | 95 => ⟨S320x320x320, .f32⟩
  | 96 => ⟨S320x320x320, .f32⟩
  | 97 => ⟨S320x320x320, .f32⟩
  | 98 => ⟨S_, .f32⟩
  | 99 => ⟨S320x320x320, .f32⟩
  | 100 => ⟨S320x320x320, .f32⟩
  | 101 => ⟨S_, .f32⟩
  | 102 => ⟨S320x320x320, .f32⟩
  | 103 => ⟨S320x320x320, .f32⟩
  | 104 => ⟨S_, .f32⟩
  | 105 => ⟨S320x320x320, .f32⟩
  | 106 => ⟨S320x320x320, .i1⟩
  | 107 => ⟨S_, .f32⟩
  | 108 => ⟨S320x320x320, .f32⟩
  | 109 => ⟨S320x320x320, .i1⟩
  | 110 => ⟨S320x320x320, .i1⟩
  | 111 => ⟨S320x320x320, .f32⟩
  | 112 => ⟨S320x320x320, .f32⟩
  | 113 => ⟨S320x320x320, .f32⟩
  | 114 => ⟨S_, .f32⟩
  | 115 => ⟨S320x320, .f32⟩
  | 116 => ⟨S_, .f32⟩
  | 117 => ⟨S320x320x320, .f32⟩
  | 118 => ⟨S320x320x320, .i1⟩
  | 119 => ⟨S320x320x320, .f32⟩
  | 120 => ⟨S320x320x320, .f32⟩
  | 121 => ⟨S_, .f32⟩
  | 122 => ⟨S320x320x320, .f32⟩
  | 123 => ⟨S320x320x320, .f32⟩
  | 124 => ⟨S320x320x320, .f32⟩
  | 125 => ⟨S_, .f32⟩
  | 126 => ⟨S320x320, .f32⟩
  | 127 => ⟨S_, .f32⟩
  | _ => ⟨S2x320x128, .f32⟩

abbrev hbmTy0_1 (i : Nat) : BufTy := match i % 128 with
  | 0 => ⟨S320x320, .f32⟩
  | 1 => ⟨S320x320, .f32⟩
  | 2 => ⟨S_, .f32⟩
  | 3 => ⟨S320x320, .f32⟩
  | 4 => ⟨S320x320, .i1⟩
  | 5 => ⟨S320x320, .f32⟩
  | 6 => ⟨S320x320, .f32⟩
  | 7 => ⟨S_, .f32⟩
  | 8 => ⟨S320x320, .f32⟩
  | 9 => ⟨S320x320, .i1⟩
  | 10 => ⟨S320x320, .f32⟩
  | 11 => ⟨S320x320, .f32⟩
  | 12 => ⟨S320x320, .f32⟩
  | 13 => ⟨S320x320, .f32⟩
  | 14 => ⟨S_, .f32⟩
  | 15 => ⟨S_, .f32⟩
  | 16 => ⟨S_, .f32⟩
  | 17 => ⟨S_, .f32⟩
  | 18 => ⟨S_, .f32⟩
  | 19 => ⟨S_, .i1⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | _ => ⟨S2x320x128, .f32⟩

abbrev hbmTy (i : Nat) : BufTy := match i / 128 with
  | 0 => hbmTy0_0 i
  | 1 => hbmTy0_1 i
  | _ => ⟨S2x320x128, .f32⟩

abbrev bufTy : (tb : Table) → Fin (tcTables nBuf tb) → BufTy
  | .hbm, ⟨i, _⟩ => hbmTy i
  | _, _ => ⟨S2x320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call2_v0 : Ref sig .tc := ⟨.hbm, 61, rfl⟩
abbrev main_call2_cst : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_cst_11 : Ref sig .tc := ⟨.hbm, 66, rfl⟩
abbrev main_call3_v0 : Ref sig .tc := ⟨.hbm, 67, rfl⟩
abbrev main_call3_v1 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_12 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_13 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_14 : Ref sig .tc := ⟨.hbm, 86, rfl⟩
abbrev main_v57 : Ref sig .tc := ⟨.hbm, 87, rfl⟩
abbrev main_v58 : Ref sig .tc := ⟨.hbm, 88, rfl⟩
abbrev main_cst_15 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_16 : Ref sig .tc := ⟨.hbm, 98, rfl⟩
abbrev main_v67 : Ref sig .tc := ⟨.hbm, 99, rfl⟩
abbrev main_v68 : Ref sig .tc := ⟨.hbm, 100, rfl⟩
abbrev main_cst_17 : Ref sig .tc := ⟨.hbm, 101, rfl⟩
abbrev main_v69 : Ref sig .tc := ⟨.hbm, 102, rfl⟩
abbrev main_v70 : Ref sig .tc := ⟨.hbm, 103, rfl⟩
abbrev main_cst_18 : Ref sig .tc := ⟨.hbm, 104, rfl⟩
abbrev main_v71 : Ref sig .tc := ⟨.hbm, 105, rfl⟩
abbrev main_v72 : Ref sig .tc := ⟨.hbm, 106, rfl⟩
abbrev main_cst_19 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_20 : Ref sig .tc := ⟨.hbm, 114, rfl⟩
abbrev main_v79 : Ref sig .tc := ⟨.hbm, 115, rfl⟩
abbrev main_cst_21 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_22 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_23 : Ref sig .tc := ⟨.hbm, 125, rfl⟩
abbrev main_v87 : Ref sig .tc := ⟨.hbm, 126, rfl⟩
abbrev main_cst_24 : Ref sig .tc := ⟨.hbm, 127, rfl⟩
abbrev main_v88 : Ref sig .tc := ⟨.hbm, 128, rfl⟩
abbrev main_v89 : Ref sig .tc := ⟨.hbm, 129, rfl⟩
abbrev main_cst_25 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_26 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_27 : Ref sig .tc := ⟨.hbm, 142, rfl⟩
abbrev main_v100 : Ref sig .tc := ⟨.hbm, 143, rfl⟩
abbrev main_cst_28 : Ref sig .tc := ⟨.hbm, 144, rfl⟩
abbrev main_v101 : Ref sig .tc := ⟨.hbm, 145, rfl⟩
abbrev main_cst_29 : Ref sig .tc := ⟨.hbm, 146, rfl⟩
abbrev main_v102 : Ref sig .tc := ⟨.hbm, 147, rfl⟩
abbrev main_cst_30 : Ref sig .tc := ⟨.hbm, 148, rfl⟩
abbrev main_v103 : Ref sig .tc := ⟨.hbm, 149, rfl⟩
abbrev main_v104 : Ref sig .tc := ⟨.hbm, 150, rfl⟩
abbrev main_cst_31 : Ref sig .tc := ⟨.hbm, 151, rfl⟩
abbrev main_call4_v0 : Ref sig .tc := ⟨.hbm, 152, rfl⟩
abbrev main_v105 : Ref sig .tc := ⟨.hbm, 153, rfl⟩

abbrev nD : Nat := 1
abbrev τ : Topo := Topo.v7x

variable {F : FTy → Type} [FloatOps F]

class Facts₀ : Prop where
  reducesTo_S2x320x128_S2x320_d2 : S2x320x128.ReducesTo [2] S2x320
  h_S_ : 0 < S_.numel
  bcast_S2x320_S2x320x1_0_1 : S2x320.BroadcastsInDim S2x320x1 (![0, 1] : Fin 2 → Fin S2x320x1.rank)
  bcast_S_S2x320x1 : S_.BroadcastsInDim S2x320x1 (![] : Fin 0 → Fin S2x320x1.rank)
  bcast_S2x320x1_S2x320x128_0_1_2 : S2x320x1.BroadcastsInDim S2x320x128 (![0, 1, 2] : Fin 3 → Fin S2x320x128.rank)
  bcast_S2x320_S2x1x320_0_2 : S2x320.BroadcastsInDim S2x1x320 (![0, 2] : Fin 2 → Fin S2x1x320.rank)
  bcast_S2x320x1_S2x320x320_0_1_2 : S2x320x1.BroadcastsInDim S2x320x320 (![0, 1, 2] : Fin 3 → Fin S2x320x320.rank)
  bcast_S2x1x320_S2x320x320_0_1_2 : S2x1x320.BroadcastsInDim S2x320x320 (![0, 1, 2] : Fin 3 → Fin S2x320x320.rank)
  transposes_S2x320x128_S2x128x320_0_2_1 : S2x320x128.Transposes [0, 2, 1] S2x128x320
  bcast_S_S2x320x320 : S_.BroadcastsInDim S2x320x320 (![] : Fin 0 → Fin S2x320x320.rank)
  reducesTo_S2x320x320_S320x320_d0 : S2x320x320.ReducesTo [0] S320x320
  bcast_S_S320x320 : S_.BroadcastsInDim S320x320 (![] : Fin 0 → Fin S320x320.rank)
  bcast_S320x320_S320x320x1_0_1 : S320x320.BroadcastsInDim S320x320x1 (![0, 1] : Fin 2 → Fin S320x320x1.rank)
  bcast_S320x320_S320x1x320_0_2 : S320x320.BroadcastsInDim S320x1x320 (![0, 2] : Fin 2 → Fin S320x1x320.rank)
  bcast_S_S320x1x320 : S_.BroadcastsInDim S320x1x320 (![] : Fin 0 → Fin S320x1x320.rank)
  bcast_S320x320x1_S320x320x320_0_1_2 : S320x320x1.BroadcastsInDim S320x320x320 (![0, 1, 2] : Fin 3 → Fin S320x320x320.rank)
  bcast_S320x1x320_S320x320x320_0_1_2 : S320x1x320.BroadcastsInDim S320x320x320 (![0, 1, 2] : Fin 3 → Fin S320x320x320.rank)
  reducesTo_S320x128_S320_d1 : S320x128.ReducesTo [1] S320
  bcast_S320_S320x1_0 : S320.BroadcastsInDim S320x1 (![0] : Fin 1 → Fin S320x1.rank)
  bcast_S_S320x1 : S_.BroadcastsInDim S320x1 (![] : Fin 0 → Fin S320x1.rank)
  bcast_S320x1_S320x128_0_1 : S320x1.BroadcastsInDim S320x128 (![0, 1] : Fin 2 → Fin S320x128.rank)
  bcast_S320_S1x320_1 : S320.BroadcastsInDim S1x320 (![1] : Fin 1 → Fin S1x320.rank)
  bcast_S320x1_S320x320_0_1 : S320x1.BroadcastsInDim S320x320 (![0, 1] : Fin 2 → Fin S320x320.rank)
  bcast_S1x320_S320x320_0_1 : S1x320.BroadcastsInDim S320x320 (![0, 1] : Fin 2 → Fin S320x320.rank)
  transposes_S320x128_S128x320_1_0 : S320x128.Transposes [1, 0] S128x320
  bcast_S_S320x320x320 : S_.BroadcastsInDim S320x320x320 (![] : Fin 0 → Fin S320x320x320.rank)
  reducesTo_S320x320x320_S320x320_d2 : S320x320x320.ReducesTo [2] S320x320
  reducesTo_S320x320_S_d0_1 : S320x320.ReducesTo [0, 1] S_
  dot_S2x320x128_S2x128x320_S2x320x320_2_1_1_2_0_0_wf : DotDims.WF S2x320x128 S2x128x320 S2x320x320 [2] [1] [1] [2] [0] [0]
  dot_S320x128_S128x320_S320x320_1_0_0_1_n_n_wf : DotDims.WF S320x128 S128x320 S320x320 [1] [0] [0] [1] [] []

variable [Facts₀]

def dot_S2x320x128_S2x128x320_S2x320x320_2_1_1_2_0_0 : DotDims S2x320x128 S2x128x320 S2x320x320 where
  lhsContracting := [2]
  rhsContracting := [1]
  lhsNonContracting := [1]
  rhsNonContracting := [2]
  lhsBatch := [0]
  rhsBatch := [0]
  wf := dot_S2x320x128_S2x128x320_S2x320x320_2_1_1_2_0_0_wf
def dot_S320x128_S128x320_S320x320_1_0_0_1_n_n : DotDims S320x128 S128x320 S320x320 where
  lhsContracting := [1]
  rhsContracting := [0]
  lhsNonContracting := [0]
  rhsNonContracting := [1]
  lhsBatch := []
  rhsBatch := []
  wf := dot_S320x128_S128x320_S320x320_1_0_0_1_n_n_wf

class Facts : Prop extends Facts₀ where

variable [Facts]
-- ==== Proof.TileOut.lean ====
import proofs.«150024_j12395275616913_2_alg».proof.Proof.Gen.KernelIdeal.Frame
import Idealize.ShloMosaic.Lib.ValueIdx
import Idealize.ShloMosaic.Lib.Pipeline.Value

/-!
The accumulator block of one core: what one grid step leaves in its corner. A core's first step zeroes the 8 × 128 block and
adds the step's number into the corner cell; a later step adds its number to what the step before left there.
-/

set_option maxRecDepth 16384

noncomputable section

namespace Cert.KernelIdeal.TileOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen ValueIdx

variable {F : FTy → Type} [FloatOps F]

/-- The one number a grid step adds to its core's accumulator, as the body computes it from the step's block of
    distances `x0` and block of pair weights `x1` (32 rows of 320 each): the sum over the block of the weighted
    per-pair losses. -/
def tileVec (x0 x1 : Vec F S32x320 .f32) : FVec F S1 .f32 :=
  k0_pay20 (k0_pay4 x1) (k0_pay16 (k0_pay3 x0) (k0_pay4 x1) (k0_pay5 x1) (k0_pay10 x0 x1))
    (k0_pay17 (k0_pay3 x0) (k0_pay4 x1) (k0_pay5 x1) k0_pay6 (k0_pay8 x0) (k0_pay9 x1) (k0_pay11 x0) k0_pay12)
    (k0_pay18 (k0_pay5 x1)) (k0_pay19 (k0_pay3 x0))

theorem hz2 : (![0, 0] : Fin 2 → Nat) = fun _ => 0 := by
  funext a; fin_cases a <;> rfl

/-- The corner cell of the accumulator block. -/
abbrev corner : S8x128.Idx := ix2 (⟨0, by decide⟩ : Fin 8) (⟨0, by decide⟩ : Fin 128)
abbrev cell11 : (Rect.unit (s := S8x128) ![0, 0] ![1, 1] inb_S8x128_S1x1_0_0).shape.Idx := ix2 (⟨0, by decide⟩ : Fin 1) (⟨0, by decide⟩ : Fin 1)

theorem emb_cell11 : (Rect.unit (s := S8x128) ![0, 0] ![1, 1] inb_S8x128_S1x1_0_0).emb cell11 = corner := by
  funext a; apply Fin.ext; fin_cases a <;> rfl

/-- A first step of a core (the accumulator block is zeroed, then the step's number added into its corner) leaves
    in the corner the zero block's corner plus the step's number. -/
theorem outA_corner (c : Dev nD) (i : grid0.Coords) (arg2 : Memref sig .tc .vmem S32x320 .f32) (harg2 : arg2.IsWhole) (arg3 : Memref sig .tc .vmem S32x320 .f32) (harg3 : arg3.IsWhole) (arg4 : Memref sig .tc .vmem S8x128 .f32) (harg4 : arg4.IsWhole) (hc0 : cond0_0 i)
    (x0 : Vec F S32x320 .f32) (x1 : Vec F S32x320 .f32) :
    out0_A_2 c i arg2 harg2 arg3 harg3 arg4 harg4 hc0 x0 x1 corner
      = k0_pay1 (tileVec x0 x1) (View.ld (k0_pay2 (F := F)) (Rect.unit (s := S8x128) ![0, 0] ![1, 1] inb_S8x128_S1x1_0_0)) cell11 := by
  unfold out0_A_2
  rw [View.read_writes_eq_canon _ _ _ (cover0_A_2 c i arg2 harg2 arg3 harg3 arg4 harg4 hc0 x0 x1)]
  unfold kernelRun0_A
  dsimp only
  sl_unfold_words
  simp only [View.readAt_eq_ld, harg2.read_unread, harg3.read_unread, View.ld_unit_zero (S := S32x320) hz2]
  rw [← emb_cell11, View.canon_cons_emb]
  rw [View.readCov_eq_canon_ld _ _ _ (fun y => ⟨_, List.mem_singleton_self _, by
    show y ∈ (Rect.unit (s := S8x128) ![0, 0] S8x128.size inb_S8x128_S8x128_0_0).set
    rw [show (Rect.unit (s := S8x128) ![0, 0] S8x128.size inb_S8x128_S8x128_0_0) = Rect.whole S8x128 from by
      simp only [hz2]; rfl, Rect.set_whole]; exact Finset.mem_univ y⟩), View.canon_unit_zero hz2]
  rfl

/-- A later step adds its number to what the step before left in the corner. -/
theorem outB_corner (c : Dev nD) (i : grid0.Coords) (arg2 : Memref sig .tc .vmem S32x320 .f32) (harg2 : arg2.IsWhole) (arg3 : Memref sig .tc .vmem S32x320 .f32) (harg3 : arg3.IsWhole) (arg4 : Memref sig .tc .vmem S8x128 .f32) (harg4 : arg4.IsWhole) (hc0 : ¬cond0_0 i)
    (x0 : Vec F S32x320 .f32) (x1 : Vec F S32x320 .f32) (xo2 : Vec F S8x128 .f32) :
    out0_B_2 c i arg2 harg2 arg3 harg3 arg4 harg4 hc0 x0 x1 xo2 corner
      = k0_pay1 (tileVec x0 x1) (View.ld xo2 (Rect.unit (s := S8x128) ![0, 0] ![1, 1] inb_S8x128_S1x1_0_0)) cell11 := by
  unfold out0_B_2
  unfold kernelRun0_B
  dsimp only
  sl_unfold_words
  simp only [View.readAt_eq_ld, harg2.read_unread, harg3.read_unread, harg4.read_unread, View.ld_unit_zero (S := S32x320) hz2]
  rw [← emb_cell11, View.read_writes_cons_emb]
  rfl

end Cert.KernelIdeal.TileOut
end
-- ==== Proof.CoreAcc.lean ====
import proofs.«150024_j12395275616913_2_alg».proof.Proof.TileOut

/-!
The corner cell step by step: at a core's first step zero plus the step's number, afterwards the previous value plus the
step's number; and the result array after the run holds, under each written-back block, what that core's last step left.
-/

set_option maxRecDepth 16384

noncomputable section

namespace Cert.KernelIdeal.TileOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen ValueIdx

variable (m : (ℓ : Loc nD τ sig) → Buf (Elt Ideal) ℓ)

/-- Adding a step's number into the corner, at the extended reals: the corner's old value plus the number. -/
theorem pay1_cell (v : FVec Ideal S1 .f32) (w : Vec Ideal S1x1 .f32) :
    k0_pay1 v w cell11 = w cell11 + v (ix1 (⟨0, by decide⟩ : Fin 1)) := by
  unfold k0_pay1
  show shapeCast S1x1 w shapeCasts_S1x1_S1x1 cell11 + shapeCast S1x1 v shapeCasts_S1_S1x1 cell11 = _
  rw [shapeCast_self, shapeCast_apply v shapeCasts_S1_S1x1 cell11 (ix1 (⟨0, by decide⟩ : Fin 1)) (by decide)]

/-- The number grid step `t` contributes: the body's block sum at the step's blocks of distances and pair weights. -/
def stepNum (c : Dev nD) (t : Fin cfg0.N) : EReal :=
  tileVec (F := Ideal) (iblk m c 0 t) (iblk m c 1 t) (ix1 (⟨0, by decide⟩ : Fin 1))

/-- At a core's first step the corner holds zero plus the step's number. -/
theorem corner_first (c : Dev nD) (t : Fin cfg0.N) (h0 : t.val % 5 = 0) :
    outsAt0 m c t.val t.isLt corner = Ideal.ofBits .f32 0x00000000#32 + stepNum m c t := by
  rw [outsAt0_A m c t h0, outA_corner, pay1_cell]
  rfl

/-- At a later step it holds what the step before left plus the step's number. -/
theorem corner_next (c : Dev nD) (t : Fin cfg0.N) (h0 : ¬t.val % 5 = 0) :
    outsAt0 m c t.val t.isLt corner
      = outsAt0 m c (t.val - 1) (Nat.lt_of_le_of_lt (Nat.sub_le _ _) t.isLt) corner + stepNum m c t := by
  rw [outsAt0_B m c t h0, outB_corner, pay1_cell]
  show outsAt0 m c (t.val - 1) _ ((Rect.unit (s := S8x128) ![0, 0] ![1, 1] inb_S8x128_S1x1_0_0).emb cell11) + _ = _
  rw [emb_cell11]
  rfl

/-- Two steps that write the accumulator back (each core's last) write different blocks. -/
theorem flush_idx_ne : ∀ t t' : Fin cfg0.N, (cfg0.win 2).flush t = true → (cfg0.win 2).flush t' = true → t ≠ t' →
    win0_2.index t ≠ win0_2.index t' :=
  (by decide +kernel : ∀ t t' : Fin grid0.N, win0_2.flush t = true → win0_2.flush t' = true → t ≠ t' → win0_2.index t ≠ win0_2.index t')

theorem disjoint_out : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk (flush_idx_ne t t' hf hf' hne)

/-- After the run, the part of the result array under a written-back block holds what that step left in the block. -/
theorem arr_at_block (c : Dev nD) (t : Fin cfg0.N) (hf : (cfg0.win 2).flush t = true) (y : S8x128.Idx) :
    (dats m 0 c).arrAt 2 cfg0.N (((cfg0.win 2).blk t).view.emb y) = outsAt0 m c t.val t.isLt y := by
  have h := (dats m 0 c).arrAt_emb_eq_flushed 2 disjoint_out t hf y
  rw [h]
  show (cfg0.win 2).cut (grid0.coords t) ((dats m 0 c).after 2 t) y = _
  rw [after0_2]
  rfl

end Cert.KernelIdeal.TileOut
end
-- ==== Proof.KernelNum.lean ====
import proofs.«150024_j12395275616913_2_alg».proof.Proof.CoreAcc

/-!
Five steps of one core: the corner ends at zero plus the five steps' numbers; and where a written-back block's corner sits
in the 16 × 128 result array (row 8 · core, column 0).
-/

set_option maxRecDepth 16384

noncomputable section

namespace Cert.KernelIdeal.TileOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen ValueIdx

variable (m : (ℓ : Loc nD τ sig) → Buf (Elt Ideal) ℓ)

theorem step_eq (c : Dev nD) (n : ℕ) (hn : n + 1 < cfg0.N) (h : ¬(n + 1) % 5 = 0) :
    outsAt0 m c (n + 1) hn corner = outsAt0 m c n (Nat.lt_of_succ_lt hn) corner + stepNum m c ⟨n + 1, hn⟩ :=
  corner_next m c ⟨n + 1, hn⟩ h

/-- After a core's fifth step the corner holds zero plus the five steps' numbers, in step order. -/
theorem core_total (c : Dev nD) (b : ℕ) (hb : b + 4 < cfg0.N) (h0 : b % 5 = 0) :
    outsAt0 m c (b + 4) hb corner
      = Ideal.ofBits .f32 0x00000000#32 + stepNum m c ⟨b, by omega⟩ + stepNum m c ⟨b + 1, by omega⟩
        + stepNum m c ⟨b + 2, by omega⟩ + stepNum m c ⟨b + 3, by omega⟩ + stepNum m c ⟨b + 4, hb⟩ := by
  rw [step_eq m c (b + 3) hb (by omega), step_eq m c (b + 2) (by omega) (by omega), step_eq m c (b + 1) (by omega) (by omega),
    step_eq m c b (by omega) (by omega), corner_first m c ⟨b, by omega⟩ h0]

/-- Where the corner of a written-back block sits in the result array: row 8 · (core), column 0. -/
theorem emb_corner_val (t : Fin cfg0.N) (a : Fin 2) :
    ((((cfg0.win 2).blk t).view.emb corner) a).val = win0_2.index t a * S8x128.size a := by
  have h := (cfg0.win 2).rect_emb_val t corner a
  fin_cases a <;> exact h.trans rfl

theorem idx_out : ∀ t : Fin cfg0.N, win0_2.index t (0 : Fin 2) = t.val / 5 ∧ win0_2.index t (1 : Fin 2) = 0 :=
  (by decide +kernel : ∀ t : Fin grid0.N, win0_2.index t (0 : Fin 2) = t.val / 5 ∧ win0_2.index t (1 : Fin 2) = 0)

end Cert.KernelIdeal.TileOut
end
-- ==== Proof.KernelTail.lean ====
import proofs.«150024_j12395275616913_2_alg».proof.Proof.KernelNum
import Idealize.ShloMosaic.Lib.StableHlo.Run

/-!
The host lines after the region, as one function of the result array and the pair-weight matrix: the numerator is the sum of
the two cores' corner cells, the denominator the sum of the pair weights, the loss their guarded quotient.
-/

set_option maxRecDepth 16384

noncomputable section

namespace Cert.KernelIdeal.TileOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen ValueIdx Idealize.ShloMosaic.StableHlo

variable (m : (ℓ : Loc nD τ sig) → Buf (Elt Ideal) ℓ)

/-- The host lines after the region: the loss from the result array (its two corners are the cores' totals) and the
    pair weights (their sum is the denominator). -/
def lossK (out : (⟨S16x128, .f32⟩ : BufTy).Contents (Elt Ideal)) (pw : (⟨S320x320, .f32⟩ : BufTy).Contents (Elt Ideal)) :
    (⟨S_, .f32⟩ : BufTy).Contents (Elt Ideal) :=
  select (cmpf .ogt (Host.reduceAdd (F := Ideal) pw (constant (F := Ideal) S_ .f32 0x00000000#32) reducesTo_S320x320_S_d0_1 h_S_) (constant (F := Ideal) S_ .f32 0x00000000#32))
    (Host.divf (F := Ideal)
      (addf (fun i => shapeCast S_ (extractStridedSlice S1x1 ![0, 0] out slices_S16x128_S1x1_0_0) shapeCasts_S1x1_S_ i)
        (fun i => shapeCast S_ (extractStridedSlice S1x1 ![8, 0] out slices_S16x128_S1x1_8_0) shapeCasts_S1x1_S_ i))
      (maximumf (Host.reduceAdd (F := Ideal) pw (constant (F := Ideal) S_ .f32 0x00000000#32) reducesTo_S320x320_S_d0_1 h_S_) (constant (F := Ideal) S_ .f32 0x2B8CBCCC#32)))
    (id (constant (F := Ideal) S_ .f32 0x00000000#32))

set_option maxHeartbeats 1000000 in
/-- What @main returns: the lines after the region applied to the result array after the run and to the pair weights
    as the region found them. -/
theorem tail_eq (c : Dev nD) :
    Pipeline.afterTail₀ cfgs (dats m) 0 (V0 m) [hostOps1, hostOps1_1] c main_v65
      = lossK ((dats m 0 c).arrAt 2 cfg0.N) (V m c main_v33) := by
  have h2 : Pipeline.withArrays (cfgs 0).spec c (V0 m c) (fun w => (dats m 0 c).arrAt w (cfgs 0).N) (Proc.devRef .tc main_v55)
      = (dats m 0 c).arrAt 2 (cfgs 0).N :=
    Pipeline.withArrays_arr (cfgs 0).spec launch0.win.arr_inj c _ _ 2
  have h1 : Pipeline.withArrays (cfgs 0).spec c (V0 m c) (fun w => (dats m 0 c).arrAt w (cfgs 0).N) (Proc.devRef .tc main_v33)
      = V m c main_v33 :=
    (Pipeline.withArrays_arr (cfgs 0).spec launch0.win.arr_inj c _ _ 1).trans
      (((dats m 0 c).arrAt_in 1 rfl _).trans (A_eq m c 1))
  unfold Pipeline.afterTail₀
  simp only [hostOps1, hostOps1_1, List.flatten_cons, List.flatten_nil, List.append_nil, List.cons_append, List.nil_append]
  after_results_simp
  rw [h2, h1]
  rfl

/-- The numerator the lines after the region form: the two corners added. -/
theorem num_corners (out : (⟨S16x128, .f32⟩ : BufTy).Contents (Elt Ideal)) (z : S_.Idx) :
    (addf (fun i => shapeCast S_ (extractStridedSlice S1x1 ![0, 0] out slices_S16x128_S1x1_0_0) shapeCasts_S1x1_S_ i)
        (fun i => shapeCast S_ (extractStridedSlice S1x1 ![8, 0] out slices_S16x128_S1x1_8_0) shapeCasts_S1x1_S_ i) : FVec Ideal S_ .f32) z
      = out (ix2 (⟨0, by decide⟩ : Fin 16) (⟨0, by decide⟩ : Fin 128)) + out (ix2 (⟨8, by decide⟩ : Fin 16) (⟨0, by decide⟩ : Fin 128)) := by
  obtain rfl := eq_ix0 z
  refine congrArg₂ (fun x y : EReal => x + y) ?_ ?_
  · refine (shapeCast_apply _ shapeCasts_S1x1_S_ ix0 (ix2 (⟨0, by decide⟩ : Fin 1) (⟨0, by decide⟩ : Fin 1)) (by decide)).trans ?_
    refine extractStridedSlice_apply ![0, 0] out slices_S16x128_S1x1_0_0 _ (ix2 (⟨0, by decide⟩ : Fin 16) (⟨0, by decide⟩ : Fin 128)) (fun a => ?_)
    fin_cases a <;> rfl
  · refine (shapeCast_apply _ shapeCasts_S1x1_S_ ix0 (ix2 (⟨0, by decide⟩ : Fin 1) (⟨0, by decide⟩ : Fin 1)) (by decide)).trans ?_
    refine extractStridedSlice_apply ![8, 0] out slices_S16x128_S1x1_8_0 _ (ix2 (⟨8, by decide⟩ : Fin 16) (⟨0, by decide⟩ : Fin 128)) (fun a => ?_)
    fin_cases a <;> rfl

end Cert.KernelIdeal.TileOut
end
-- ==== Proof.TripletLaws.lean ====
import Idealize.ShloMosaic.PureOps.Ideal
import Idealize.ShloMosaic.PureOps.Ideal.Laws
import Idealize.ShloMosaic.Lib.ValueIdx

/-!
The triplet loss of one anchor row, on the extended reals, in the two arrangements the programs use, and
the laws that make them one number.

For an anchor row with distances `a k` and pair weights `p k` (k over the 320 samples), the pair (j, k) has the
difference `a k - a j`, the hinge `max (margin - (a k - a j)) 0`, and the triplet weight `p j * (1 - p k)`.
One arrangement masks by comparing the DIFFERENCE with 0 and the margin and keeps the weight by a selection;
the other masks by comparing the HINGE with 0 and the margin and multiplies the weight by the mask as a number.
One takes the maximum (minimum) over k in three stretches of 128, 128 and 64 from a running value that starts
at 0 (+∞); the other takes it over all k at once from -∞ (+∞).
-/

noncomputable section

namespace Cert.Triplet

open Idealize.ShloMosaic

abbrev W0 : EReal := Ideal.ofBits .f32 0x00000000#32
abbrev W1 : EReal := Ideal.ofBits .f32 0x3F800000#32
abbrev Wmg : EReal := Ideal.ofBits .f32 0x3E4CCCCD#32
abbrev Wrho : EReal := Ideal.ofBits .f32 0x41200000#32
abbrev Wthr : EReal := Ideal.ofBits .f32 0x3C23D70A#32
abbrev Wninf : EReal := Ideal.ofBits .f32 0xFF800000#32
abbrev Wpinf : EReal := Ideal.ofBits .f32 0x7F800000#32

theorem W0_eq : W0 = 0 := by simp [Ideal.ofBits, Ideal.ieee]
theorem W1_eq : W1 = 1 := by simp [Ideal.ofBits, Ideal.ieee, -EReal.coe_mul]; norm_num
theorem Wninf_eq : Wninf = ⊥ := by simp [Ideal.ofBits, Ideal.ieee]
theorem Wpinf_eq : Wpinf = ⊤ := by simp [Ideal.ofBits, Ideal.ieee]
/-- The margin's pattern denotes a nonnegative real. -/
theorem Wmg_real : ∃ r : ℝ, 0 ≤ r ∧ Wmg = (r : EReal) := by
  refine ⟨(13421773 : ℝ) * (2 : ℝ) ^ (-26 : ℤ), by positivity, ?_⟩
  simp [Ideal.ofBits, Ideal.ieee, -EReal.coe_mul]

/-! ## Conditions as bits -/

theorem bit_and (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

theorem sel_bit {α : Type} (p : Prop) [Decidable p] (x y : α) :
    Scalar.select (BitVec.ofBool (decide p)) x y = if p then x else y := by
  by_cases hp : p <;> simp [Scalar.select, hp]

theorem nat_bit (p : Prop) [Decidable p] (w : EReal) :
    ((((BitVec.ofBool (decide p)).toNat : ℝ)) : EReal) * w = if p then w else 0 := by
  by_cases hp : p <;> simp [hp]

theorem nat_bit' (p : Prop) [Decidable p] (w : EReal) :
    w * ((((BitVec.ofBool (decide p)).toNat : ℝ)) : EReal) = if p then w else 0 := by
  rw [mul_comm]; exact nat_bit p w

/-- A condition widened to a word and read as a signed integer is the condition read as an unsigned one. -/
theorem sitofp_bit (b : BitVec 1) :
    (FloatOps.sitofp (F := Ideal) .f32 (b.setWidth 32) : EReal) = (((b.toNat : ℝ)) : EReal) := by
  have hb : b = 0#1 ∨ b = 1#1 := by
    have : ∀ b : BitVec 1, b = 0#1 ∨ b = 1#1 := by decide
    exact this b
  rcases hb with rfl | rfl
  · show ((((0#1 : BitVec 1).setWidth 32).toInt : ℝ) : EReal) = _
    simp
  · show ((((1#1 : BitVec 1).setWidth 32).toInt : ℝ) : EReal) = _
    simp

/-! ## One pair (j, k): the two maskings agree -/

/-- The hinge of the pair with distances `a` (to k) and `b` (to j). -/
def hinge (a b : EReal) : EReal := max (Wmg - (a - b)) W0

/-- For ANY extended-real difference `d`: it lies in [0, margin) exactly when the hinge lies in (0, margin]. -/
theorem semi_iff (d : EReal) : (W0 ≤ d ∧ d < Wmg) ↔ (W0 < max (Wmg - d) W0 ∧ max (Wmg - d) W0 ≤ Wmg) := by
  obtain ⟨r, hr, hM⟩ := Wmg_real
  rw [hM, W0_eq]
  induction d using EReal.rec with
  | bot => simp
  | top =>
    have : ((r : EReal) - ⊤) = ⊥ := by simp
    rw [this]; simp
  | coe x =>
    rw [← EReal.coe_sub]
    have e : max ((r - x : ℝ) : EReal) 0 = ((max (r - x) 0 : ℝ) : EReal) :=
      (EReal.coe_strictMono.monotone.map_max (a := r - x) (b := 0)).symm
    rw [e]
    norm_cast
    constructor
    · rintro ⟨h1, h2⟩
      exact ⟨lt_max_of_lt_left (by linarith), max_le (by linarith) hr⟩
    · rintro ⟨h1, h2⟩
      rcases lt_max_iff.mp h1 with h | h
      · exact ⟨by have := (max_le_iff.mp h2).1; linarith, by linarith⟩
      · exact absurd h (lt_irrefl _)

/-- For ANY extended-real difference `d`: it is negative exactly when the hinge exceeds the margin. -/
theorem hard_iff (d : EReal) : (d < W0) ↔ (Wmg < max (Wmg - d) W0) := by
  obtain ⟨r, hr, hM⟩ := Wmg_real
  rw [hM, W0_eq]
  induction d using EReal.rec with
  | bot => simp
  | top =>
    have : ((r : EReal) - ⊤) = ⊥ := by simp
    rw [this]; simp; exact_mod_cast hr
  | coe x =>
    rw [← EReal.coe_sub]
    have e : max ((r - x : ℝ) : EReal) 0 = ((max (r - x) 0 : ℝ) : EReal) :=
      (EReal.coe_strictMono.monotone.map_max (a := r - x) (b := 0)).symm
    rw [e]
    norm_cast
    constructor
    · intro h; exact lt_max_of_lt_left (by linarith)
    · intro h
      rcases lt_max_iff.mp h with h | h
      · linarith
      · linarith

/-- The semihard term, masked on the difference, the weight kept by a selection. -/
def semK (a b w : EReal) : EReal :=
  hinge a b * Scalar.select (IntOp.andi (Ideal.cmp .oge (a - b) W0) (Ideal.cmp .olt (a - b) Wmg)) w W0
/-- The hard term, masked on the difference. -/
def hardK (a b w : EReal) : EReal :=
  hinge a b - Wrho * Scalar.select (Ideal.cmp .olt (a - b) W0) w W0
/-- The semihard term, masked on the hinge, the mask multiplied in as 0 or 1. -/
def semR (a b w : EReal) : EReal :=
  hinge a b * ((((IntOp.andi (Ideal.cmp .ogt (hinge a b) W0) (Ideal.cmp .ole (hinge a b) Wmg)).toNat : ℝ) : EReal) * w)
/-- The hard term, masked on the hinge. -/
def hardR (a b w : EReal) : EReal :=
  hinge a b - Wrho * ((((Ideal.cmp .ogt (hinge a b) Wmg).toNat : ℝ) : EReal) * w)

theorem semK_eq_semR (a b w : EReal) : semK a b w = semR a b w := by
  unfold semK semR
  show hinge a b * Scalar.select (IntOp.andi (BitVec.ofBool (decide (W0 ≤ a - b))) (BitVec.ofBool (decide (a - b < Wmg)))) w W0
    = hinge a b * ((((IntOp.andi (BitVec.ofBool (decide (W0 < hinge a b))) (BitVec.ofBool (decide (hinge a b ≤ Wmg)))).toNat : ℝ) : EReal) * w)
  rw [bit_and, bit_and, sel_bit, nat_bit, W0_eq]
  congr 1
  have h := semi_iff (a - b)
  rw [W0_eq] at h
  unfold hinge
  rw [W0_eq]
  exact if_congr h rfl rfl

theorem hardK_eq_hardR (a b w : EReal) : hardK a b w = hardR a b w := by
  unfold hardK hardR
  show hinge a b - Wrho * Scalar.select (BitVec.ofBool (decide (a - b < W0))) w W0
    = hinge a b - Wrho * ((((BitVec.ofBool (decide (Wmg < hinge a b))).toNat : ℝ) : EReal) * w)
  rw [sel_bit, nat_bit, W0_eq]
  congr 2
  have h := hard_iff (a - b)
  rw [W0_eq] at h
  unfold hinge
  rw [W0_eq]
  exact if_congr h rfl rfl

theorem hinge_nonneg (a b : EReal) : 0 ≤ hinge a b := by
  unfold hinge; rw [W0_eq]; exact le_max_right _ _

/-- With a nonnegative weight the semihard term is nonnegative. -/
theorem semR_nonneg (a b w : EReal) (hw : 0 ≤ w) : 0 ≤ semR a b w := by
  rw [← semK_eq_semR]
  unfold semK
  refine mul_nonneg (hinge_nonneg a b) ?_
  unfold Scalar.select
  split
  · exact hw
  · rw [W0_eq]

/-! ## The two masks of the final combination -/

/-- The per-pair loss from the row's semihard maximum `s` and hard minimum `n`, masks as unsigned conversions. -/
def pos (s n : EReal) : EReal :=
  s + (((Ideal.cmp .ole s Wthr).toNat : ℝ) : EReal) * ((n + Wrho) * (((Ideal.cmp .olt n W0).toNat : ℝ) : EReal))
/-- The same with the masks widened to words and converted as signed integers. -/
def posK (s n : EReal) : EReal :=
  s + (FloatOps.sitofp (F := Ideal) .f32 ((Ideal.cmp .ole s Wthr).setWidth 32) : EReal)
      * ((n + Wrho) * (FloatOps.sitofp (F := Ideal) .f32 ((Ideal.cmp .olt n W0).setWidth 32) : EReal))

theorem posK_eq_pos (s n : EReal) : posK s n = pos s n := by
  unfold posK pos
  rw [sitofp_bit, sitofp_bit]

/-! ## The maximum and the minimum over k, in three stretches or at once -/

abbrev st0 (k : Fin 128) : Fin 320 := ⟨k.val, by omega⟩
abbrev st1 (k : Fin 128) : Fin 320 := ⟨128 + k.val, by omega⟩
abbrev st2 (k : Fin 64) : Fin 320 := ⟨256 + k.val, by omega⟩

theorem stretch_cases (x : Fin 320) : (∃ k, x = st0 k) ∨ (∃ k, x = st1 k) ∨ (∃ k, x = st2 k) := by
  by_cases h0 : x.val < 128
  · exact .inl ⟨⟨x.val, h0⟩, Fin.ext rfl⟩
  · by_cases h1 : x.val < 256
    · exact .inr (.inl ⟨⟨x.val - 128, by omega⟩, Fin.ext (by show x.val = 128 + (x.val - 128); omega)⟩)
    · exact .inr (.inr ⟨⟨x.val - 256, by omega⟩, Fin.ext (by show x.val = 256 + (x.val - 256); have := x.isLt; omega)⟩)

/-- A running maximum started at 0 and taken stretch by stretch is the maximum over all k started at -∞, when
    some term is nonnegative. -/
theorem max_stretches (f : Fin 320 → EReal) (hf : ∃ x, 0 ≤ f x) :
    max (max (max W0 (Finset.univ.fold max Wninf fun k => f (st0 k))) (Finset.univ.fold max Wninf fun k => f (st1 k)))
        (Finset.univ.fold max Wninf fun k => f (st2 k))
      = Finset.univ.fold max Wninf f := by
  apply le_antisymm
  · refine max_le (max_le (max_le ?_ ?_) ?_) ?_
    · obtain ⟨x, hx⟩ := hf
      rw [W0_eq]
      exact (Finset.le_fold_max _).mpr (.inr ⟨x, Finset.mem_univ _, hx⟩)
    · exact (Finset.fold_max_le _).mpr ⟨(Finset.le_fold_max _).mpr (.inl le_rfl), fun k _ => (Finset.le_fold_max _).mpr (.inr ⟨st0 k, Finset.mem_univ _, le_rfl⟩)⟩
    · exact (Finset.fold_max_le _).mpr ⟨(Finset.le_fold_max _).mpr (.inl le_rfl), fun k _ => (Finset.le_fold_max _).mpr (.inr ⟨st1 k, Finset.mem_univ _, le_rfl⟩)⟩
    · exact (Finset.fold_max_le _).mpr ⟨(Finset.le_fold_max _).mpr (.inl le_rfl), fun k _ => (Finset.le_fold_max _).mpr (.inr ⟨st2 k, Finset.mem_univ _, le_rfl⟩)⟩
  · refine (Finset.fold_max_le _).mpr ⟨?_, fun x _ => ?_⟩
    · rw [Wninf_eq]; exact bot_le
    · rcases stretch_cases x with ⟨k, rfl⟩ | ⟨k, rfl⟩ | ⟨k, rfl⟩
      · exact le_max_of_le_left (le_max_of_le_left (le_max_of_le_right ((Finset.le_fold_max _).mpr (.inr ⟨k, Finset.mem_univ _, le_rfl⟩))))
      · exact le_max_of_le_left (le_max_of_le_right ((Finset.le_fold_max _).mpr (.inr ⟨k, Finset.mem_univ _, le_rfl⟩)))
      · exact le_max_of_le_right ((Finset.le_fold_max _).mpr (.inr ⟨k, Finset.mem_univ _, le_rfl⟩))

/-- A running minimum started at +∞ and taken stretch by stretch is the minimum over all k started at +∞. -/
theorem min_stretches (g : Fin 320 → EReal) :
    min (min (min Wpinf (Finset.univ.fold min Wpinf fun k => g (st0 k))) (Finset.univ.fold min Wpinf fun k => g (st1 k)))
        (Finset.univ.fold min Wpinf fun k => g (st2 k))
      = Finset.univ.fold min Wpinf g := by
  apply le_antisymm
  · refine (Finset.le_fold_min _).mpr ⟨?_, fun x _ => ?_⟩
    · exact min_le_of_left_le (min_le_of_left_le (min_le_left _ _))
    · rcases stretch_cases x with ⟨k, rfl⟩ | ⟨k, rfl⟩ | ⟨k, rfl⟩
      · exact min_le_of_left_le (min_le_of_left_le (min_le_of_right_le ((Finset.fold_min_le _).mpr (.inr ⟨k, Finset.mem_univ _, le_rfl⟩))))
      · exact min_le_of_left_le (min_le_of_right_le ((Finset.fold_min_le _).mpr (.inr ⟨k, Finset.mem_univ _, le_rfl⟩)))
      · exact min_le_of_right_le ((Finset.fold_min_le _).mpr (.inr ⟨k, Finset.mem_univ _, le_rfl⟩))
  · refine le_min (le_min (le_min ?_ ?_) ?_) ?_
    · exact (Finset.fold_min_le _).mpr (.inl le_rfl)
    · exact (Finset.le_fold_min _).mpr ⟨(Finset.fold_min_le _).mpr (.inl le_rfl), fun k _ => (Finset.fold_min_le _).mpr (.inr ⟨st0 k, Finset.mem_univ _, le_rfl⟩)⟩
    · exact (Finset.le_fold_min _).mpr ⟨(Finset.fold_min_le _).mpr (.inl le_rfl), fun k _ => (Finset.fold_min_le _).mpr (.inr ⟨st1 k, Finset.mem_univ _, le_rfl⟩)⟩
    · exact (Finset.le_fold_min _).mpr ⟨(Finset.fold_min_le _).mpr (.inl le_rfl), fun k _ => (Finset.fold_min_le _).mpr (.inr ⟨st2 k, Finset.mem_univ _, le_rfl⟩)⟩

/-! ## One anchor row -/

/-- The triplet weight of the pair (j, k) of a row with pair weights `p`. -/
def tw (p : Fin 320 → EReal) (j k : Fin 320) : EReal := p j * (W1 - p k)

/-- The weighted loss of pair j of a row, all k at once, masks on the hinge. -/
def rowR (a p : Fin 320 → EReal) (j : Fin 320) : EReal :=
  pos (Finset.univ.fold max Wninf fun k : Fin 320 => semR (a k) (a j) (tw p j k))
      (Finset.univ.fold min Wpinf fun k : Fin 320 => hardR (a k) (a j) (tw p j k)) * p j

/-- The same in three stretches, masks on the difference. -/
def rowK (a p : Fin 320 → EReal) (j : Fin 320) : EReal :=
  posK
    (max (max (max W0 (Finset.univ.fold max Wninf fun k : Fin 128 => semK (a (st0 k)) (a j) (tw p j (st0 k))))
        (Finset.univ.fold max Wninf fun k : Fin 128 => semK (a (st1 k)) (a j) (tw p j (st1 k))))
      (Finset.univ.fold max Wninf fun k : Fin 64 => semK (a (st2 k)) (a j) (tw p j (st2 k))))
    (min (min (min Wpinf (Finset.univ.fold min Wpinf fun k : Fin 128 => hardK (a (st0 k)) (a j) (tw p j (st0 k))))
        (Finset.univ.fold min Wpinf fun k : Fin 128 => hardK (a (st1 k)) (a j) (tw p j (st1 k))))
      (Finset.univ.fold min Wpinf fun k : Fin 64 => hardK (a (st2 k)) (a j) (tw p j (st2 k)))) * p j

/-- With pair weights in [0, 1] every triplet weight is nonnegative. -/
theorem tw_nonneg (p : Fin 320 → EReal) (hp : ∀ k, 0 ≤ p k ∧ p k ≤ 1) (j k : Fin 320) : 0 ≤ tw p j k := by
  unfold tw
  refine mul_nonneg (hp j).1 ?_
  rw [W1_eq]
  exact (EReal.sub_nonneg (.inl (show ((1 : ℝ) : EReal) ≠ ⊤ from EReal.coe_ne_top 1)) (.inl (show ((1 : ℝ) : EReal) ≠ ⊥ from EReal.coe_ne_bot 1))).mpr (hp k).2

/-- THE ROW LAW: with pair weights in [0, 1] the two arrangements give one number. -/
theorem rowK_eq_rowR (a p : Fin 320 → EReal) (hp : ∀ k, 0 ≤ p k ∧ p k ≤ 1) (j : Fin 320) : rowK a p j = rowR a p j := by
  unfold rowK rowR
  rw [posK_eq_pos]
  simp only [semK_eq_semR, hardK_eq_hardR]
  rw [max_stretches (fun k => semR (a k) (a j) (tw p j k)) ⟨j, semR_nonneg _ _ _ (tw_nonneg p hp j j)⟩,
    min_stretches (fun k => hardR (a k) (a j) (tw p j k))]

/-! ## The pair weights are in [0, 1] -/

/-- `1 / (1 + e^z)` lies in [0, 1] for EVERY extended real `z` (at -∞ it is 1, at +∞ it is 0). -/
theorem sigmoid_bounds (z : EReal) : 0 ≤ Ideal.div W1 (W1 + Ideal.exp z) ∧ Ideal.div W1 (W1 + Ideal.exp z) ≤ 1 := by
  rw [W1_eq]
  induction z using EReal.rec with
  | bot =>
    show 0 ≤ Ideal.div 1 (1 + 0) ∧ Ideal.div 1 (1 + 0) ≤ 1
    have e : (1 : EReal) + 0 = ((1 : ℝ) : EReal) := by simp
    rw [e, Ideal.div_coe one_ne_zero]
    norm_num
  | top =>
    show 0 ≤ Ideal.div 1 (1 + ⊤) ∧ Ideal.div 1 (1 + ⊤) ≤ 1
    have e : (1 : EReal) + ⊤ = ⊤ := by
      show ((1 : ℝ) : EReal) + ⊤ = ⊤
      exact EReal.coe_add_top 1
    rw [e]
    unfold Ideal.div
    rw [if_neg EReal.top_ne_zero, EReal.inv_top, mul_zero]
    exact ⟨le_rfl, zero_le_one⟩
  | coe x =>
    show 0 ≤ Ideal.div 1 (1 + (Real.exp x : EReal)) ∧ Ideal.div 1 (1 + (Real.exp x : EReal)) ≤ 1
    have hpos : (0 : ℝ) < 1 + Real.exp x := by positivity
    have e : (1 : EReal) + (Real.exp x : EReal) = ((1 + Real.exp x : ℝ) : EReal) := by norm_cast
    rw [e, Ideal.div_coe (ne_of_gt hpos)]
    rw [one_mul]
    constructor
    · exact_mod_cast (by positivity : (0 : ℝ) ≤ 1 / (1 + Real.exp x))
    · have : (1 : ℝ) / (1 + Real.exp x) ≤ 1 := by
        rw [div_le_one hpos]; linarith [Real.exp_pos x]
      exact_mod_cast this

end Cert.Triplet
end
-- ==== Proof.BlockRead.lean ====
import Idealize.ShloMosaic.PureOps.Ideal.Laws
import Idealize.ShloMosaic.Lib.ValueIdx
import Idealize.ShloMosaic.Lib.Pipeline.Value
import proofs.«150024_j12395275616913_2_alg».proof.Proof.TripletLaws

/-!
A block of 32 anchor rows by 320 samples, read at an index through the layout operations the kernel body uses:
a stretch of columns cut out of the block, a block or a stretch given a new unit axis and repeated along it, and
the maximum / minimum over the last axis of the 32 × 320 × (stretch) values. Each lemma says which entry of the block
an entry of the result is.
-/

set_option maxRecDepth 16384

noncomputable section

namespace Cert.Triplet

open Idealize.ShloMosaic ValueIdx

section Layout
variable {α : Type}

/-- A 32 × 128 stretch given a middle unit axis and repeated 320 times along it: entry (r, j, k) is the stretch's (r, k). -/
theorem along_mid_128 (v : (⟨2, ![32, 128]⟩ : Shape).Idx → α) (h1 : (⟨2, ![32, 128]⟩ : Shape).ShapeCasts ⟨3, ![32, 1, 128]⟩)
    (h2 : (⟨3, ![32, 1, 128]⟩ : Shape).Broadcasts ⟨3, ![32, 320, 128]⟩) (r : Fin 32) (j : Fin 320) (k : Fin 128) :
    broadcastTo ⟨3, ![32, 320, 128]⟩ (shapeCast ⟨3, ![32, 1, 128]⟩ v h1) h2 (ix3 r j k) = v (ix2 r k) := by
  refine (broadcastTo_apply _ h2 (ix3 r j k) (ix3 r (⟨0, by decide⟩ : Fin 1) k) (fun a => ?_)).trans ?_
  · match a with
    | ⟨0, _⟩ => show r.val = if (32 : ℕ) = 1 then 0 else r.val; rw [if_neg (by decide)]
    | ⟨1, _⟩ => show 0 = if (1 : ℕ) = 1 then 0 else j.val; rw [if_pos rfl]
    | ⟨2, _⟩ => show k.val = if (128 : ℕ) = 1 then 0 else k.val; rw [if_neg (by decide)]
  · exact shapeCast_apply v h1 (ix3 r (⟨0, by decide⟩ : Fin 1) k) (ix2 r k) (by
      rw [Shape.rowMajor_val_two, Shape.rowMajor_val_three]
      show r.val * 128 + k.val = (r.val * 1 + 0) * 128 + k.val
      omega)

/-- The 32 × 320 block given a last unit axis and repeated 128 times along it: entry (r, j, k) is the block's (r, j). -/
theorem along_last_128 (u : (⟨2, ![32, 320]⟩ : Shape).Idx → α) (h1 : (⟨2, ![32, 320]⟩ : Shape).ShapeCasts ⟨3, ![32, 320, 1]⟩)
    (h2 : (⟨3, ![32, 320, 1]⟩ : Shape).Broadcasts ⟨3, ![32, 320, 128]⟩) (r : Fin 32) (j : Fin 320) (k : Fin 128) :
    broadcastTo ⟨3, ![32, 320, 128]⟩ (shapeCast ⟨3, ![32, 320, 1]⟩ u h1) h2 (ix3 r j k) = u (ix2 r j) := by
  refine (broadcastTo_apply _ h2 (ix3 r j k) (ix3 r j (⟨0, by decide⟩ : Fin 1)) (fun a => ?_)).trans ?_
  · match a with
    | ⟨0, _⟩ => show r.val = if (32 : ℕ) = 1 then 0 else r.val; rw [if_neg (by decide)]
    | ⟨1, _⟩ => show j.val = if (320 : ℕ) = 1 then 0 else j.val; rw [if_neg (by decide)]
    | ⟨2, _⟩ => show 0 = if (1 : ℕ) = 1 then 0 else k.val; rw [if_pos rfl]
  · exact shapeCast_apply u h1 (ix3 r j (⟨0, by decide⟩ : Fin 1)) (ix2 r j) (by
      rw [Shape.rowMajor_val_two, Shape.rowMajor_val_three]
      show r.val * 320 + j.val = (r.val * 320 + j.val) * 1 + 0
      omega)

/-- The reduced index (r, j) with the last coordinate k put back is (r, j, k). -/
theorem lift_last_128 (h : (⟨3, ![32, 320, 128]⟩ : Shape).Reduces [2] (⟨2, ![32, 320]⟩ : Shape)) (r : Fin 32) (j : Fin 320)
    (k : Fin ((⟨3, ![32, 320, 128]⟩ : Shape).size 2)) : h.lift (ix2 r j) k = ix3 r j (⟨k.val, k.isLt⟩ : Fin 128) := by
  funext c; apply Fin.ext
  fin_cases c <;> rfl

/-- A 32 × 64 stretch given a middle unit axis and repeated 320 times along it: entry (r, j, k) is the stretch's (r, k). -/
theorem along_mid_64 (v : (⟨2, ![32, 64]⟩ : Shape).Idx → α) (h1 : (⟨2, ![32, 64]⟩ : Shape).ShapeCasts ⟨3, ![32, 1, 64]⟩)
    (h2 : (⟨3, ![32, 1, 64]⟩ : Shape).Broadcasts ⟨3, ![32, 320, 64]⟩) (r : Fin 32) (j : Fin 320) (k : Fin 64) :
    broadcastTo ⟨3, ![32, 320, 64]⟩ (shapeCast ⟨3, ![32, 1, 64]⟩ v h1) h2 (ix3 r j k) = v (ix2 r k) := by
  refine (broadcastTo_apply _ h2 (ix3 r j k) (ix3 r (⟨0, by decide⟩ : Fin 1) k) (fun a => ?_)).trans ?_
  · match a with
    | ⟨0, _⟩ => show r.val = if (32 : ℕ) = 1 then 0 else r.val; rw [if_neg (by decide)]
    | ⟨1, _⟩ => show 0 = if (1 : ℕ) = 1 then 0 else j.val; rw [if_pos rfl]
    | ⟨2, _⟩ => show k.val = if (64 : ℕ) = 1 then 0 else k.val; rw [if_neg (by decide)]
  · exact shapeCast_apply v h1 (ix3 r (⟨0, by decide⟩ : Fin 1) k) (ix2 r k) (by
      rw [Shape.rowMajor_val_two, Shape.rowMajor_val_three]
      show r.val * 64 + k.val = (r.val * 1 + 0) * 64 + k.val
      omega)

/-- The 32 × 320 block given a last unit axis and repeated 64 times along it: entry (r, j, k) is the block's (r, j). -/
theorem along_last_64 (u : (⟨2, ![32, 320]⟩ : Shape).Idx → α) (h1 : (⟨2, ![32, 320]⟩ : Shape).ShapeCasts ⟨3, ![32, 320, 1]⟩)
    (h2 : (⟨3, ![32, 320, 1]⟩ : Shape).Broadcasts ⟨3, ![32, 320, 64]⟩) (r : Fin 32) (j : Fin 320) (k : Fin 64) :
    broadcastTo ⟨3, ![32, 320, 64]⟩ (shapeCast ⟨3, ![32, 320, 1]⟩ u h1) h2 (ix3 r j k) = u (ix2 r j) := by
  refine (broadcastTo_apply _ h2 (ix3 r j k) (ix3 r j (⟨0, by decide⟩ : Fin 1)) (fun a => ?_)).trans ?_
  · match a with
    | ⟨0, _⟩ => show r.val = if (32 : ℕ) = 1 then 0 else r.val; rw [if_neg (by decide)]
    | ⟨1, _⟩ => show j.val = if (320 : ℕ) = 1 then 0 else j.val; rw [if_neg (by decide)]
    | ⟨2, _⟩ => show 0 = if (1 : ℕ) = 1 then 0 else k.val; rw [if_pos rfl]
  · exact shapeCast_apply u h1 (ix3 r j (⟨0, by decide⟩ : Fin 1)) (ix2 r j) (by
      rw [Shape.rowMajor_val_two, Shape.rowMajor_val_three]
      show r.val * 320 + j.val = (r.val * 320 + j.val) * 1 + 0
      omega)

/-- The reduced index (r, j) with the last coordinate k put back is (r, j, k). -/
theorem lift_last_64 (h : (⟨3, ![32, 320, 64]⟩ : Shape).Reduces [2] (⟨2, ![32, 320]⟩ : Shape)) (r : Fin 32) (j : Fin 320)
    (k : Fin ((⟨3, ![32, 320, 64]⟩ : Shape).size 2)) : h.lift (ix2 r j) k = ix3 r j (⟨k.val, k.isLt⟩ : Fin 64) := by
  funext c; apply Fin.ext
  fin_cases c <;> rfl

/-- The stretch of 128 columns from column 0 of the block: entry (r, k) is the block's (r, 0 + k). -/
theorem stretch_0 (u : (⟨2, ![32, 320]⟩ : Shape).Idx → α) (h : (⟨2, ![32, 320]⟩ : Shape).Slices ![0, 0] ⟨2, ![32, 128]⟩)
    (r : Fin 32) (k : Fin 128) :
    extractStridedSlice ⟨2, ![32, 128]⟩ ![0, 0] u h (ix2 r k) = u (ix2 r (st0 k)) := by
  refine extractStridedSlice_apply ![0, 0] u h (ix2 r k) (ix2 r (st0 k)) (fun a => ?_)
  match a with
  | ⟨0, _⟩ => show r.val = 0 + r.val; omega
  | ⟨1, _⟩ => show (st0 k).val = 0 + k.val; show k.val = 0 + k.val; omega

/-- The stretch of 128 columns from column 128 of the block: entry (r, k) is the block's (r, 128 + k). -/
theorem stretch_1 (u : (⟨2, ![32, 320]⟩ : Shape).Idx → α) (h : (⟨2, ![32, 320]⟩ : Shape).Slices ![0, 128] ⟨2, ![32, 128]⟩)
    (r : Fin 32) (k : Fin 128) :
    extractStridedSlice ⟨2, ![32, 128]⟩ ![0, 128] u h (ix2 r k) = u (ix2 r (st1 k)) := by
  refine extractStridedSlice_apply ![0, 128] u h (ix2 r k) (ix2 r (st1 k)) (fun a => ?_)
  match a with
  | ⟨0, _⟩ => show r.val = 0 + r.val; omega
  | ⟨1, _⟩ => show (st1 k).val = 128 + k.val; show 128 + k.val = 128 + k.val; omega

/-- The stretch of 64 columns from column 256 of the block: entry (r, k) is the block's (r, 256 + k). -/
theorem stretch_2 (u : (⟨2, ![32, 320]⟩ : Shape).Idx → α) (h : (⟨2, ![32, 320]⟩ : Shape).Slices ![0, 256] ⟨2, ![32, 64]⟩)
    (r : Fin 32) (k : Fin 64) :
    extractStridedSlice ⟨2, ![32, 64]⟩ ![0, 256] u h (ix2 r k) = u (ix2 r (st2 k)) := by
  refine extractStridedSlice_apply ![0, 256] u h (ix2 r k) (ix2 r (st2 k)) (fun a => ?_)
  match a with
  | ⟨0, _⟩ => show r.val = 0 + r.val; omega
  | ⟨1, _⟩ => show (st2 k).val = 256 + k.val; show 256 + k.val = 256 + k.val; omega

end Layout

/-! ## The maximum and the minimum over a stretch -/

/-- The semihard and hard terms as functions of the difference. -/
def semD (d w : EReal) : EReal :=
  max (Wmg - d) W0 * Scalar.select (IntOp.andi (Ideal.cmp .oge d W0) (Ideal.cmp .olt d Wmg)) w W0
def hardD (d w : EReal) : EReal :=
  max (Wmg - d) W0 - Wrho * Scalar.select (Ideal.cmp .olt d W0) w W0
theorem semK_eq_semD (a b w : EReal) : semK a b w = semD (a - b) w := rfl
theorem hardK_eq_hardD (a b w : EReal) : hardK a b w = hardD (a - b) w := rfl

/-- The maximum over the last axis of (hinge × selected weight), at (r, j): the fold of max from -∞ over the stretch of
    the semihard terms, when the vectors hold, entry by entry, the hinge, the mask, the weight and zero. -/
theorem max_stretch_128 (Hv Tv Zv : FVec Ideal ⟨3, ![32, 320, 128]⟩ .f32) (Cv : IVec ⟨3, ![32, 320, 128]⟩ 1)
    (h : (⟨3, ![32, 320, 128]⟩ : Shape).Reduces [2] (⟨2, ![32, 320]⟩ : Shape)) (hφ : FKind.Formats .f32)
    (hacc : (0xFF800000#32 : BitVec 32) = FKind.maximumf.neutral .f32 hφ) (r : Fin 32) (j : Fin 320)
    (d w : Fin 128 → EReal)
    (hH : ∀ k, Hv (ix3 r j k) = max (Wmg - d k) W0)
    (hC : ∀ k, Cv (ix3 r j k) = IntOp.andi (Ideal.cmp .oge (d k) W0) (Ideal.cmp .olt (d k) Wmg))
    (hT : ∀ k, Tv (ix3 r j k) = w k) (hZ : ∀ k, Zv (ix3 r j k) = W0) :
    multiReduction .maximumf [2] ⟨2, ![32, 320]⟩ (mulf Hv (select Cv Tv Zv)) 0xFF800000#32 h hφ hacc (ix2 r j)
      = Finset.univ.fold max Wninf (fun k : Fin 128 => semD (d k) (w k)) := by
  refine (Ideal.multiReduction_maximumf_single (mulf Hv (select Cv Tv Zv)) 0xFF800000#32 h hφ hacc (ix2 r j)).trans ?_
  refine congrArg (fun f => Finset.fold max Wninf f (Finset.univ : Finset (Fin 128))) (funext fun (k : Fin 128) => ?_)
  have hl := lift_last_128 h r j k
  show mulf Hv (select Cv Tv Zv) (h.lift (ix2 r j) k) = semD (d k) (w k)
  rw [hl]
  show Hv (ix3 r j (⟨k.val, k.isLt⟩ : Fin 128)) * Scalar.select (Cv (ix3 r j (⟨k.val, k.isLt⟩ : Fin 128))) (Tv (ix3 r j (⟨k.val, k.isLt⟩ : Fin 128))) (Zv (ix3 r j (⟨k.val, k.isLt⟩ : Fin 128))) = _
  rw [hH, hC, hT, hZ]
  rfl

/-- The minimum over the last axis of (hinge − ρ × selected weight), at (r, j): the fold of min from +∞ over the stretch
    of the hard terms. -/
theorem min_stretch_128 (Hv Tv Zv Rv : FVec Ideal ⟨3, ![32, 320, 128]⟩ .f32) (Cv : IVec ⟨3, ![32, 320, 128]⟩ 1)
    (h : (⟨3, ![32, 320, 128]⟩ : Shape).Reduces [2] (⟨2, ![32, 320]⟩ : Shape)) (hφ : FKind.Formats .f32)
    (hacc : (0x7F800000#32 : BitVec 32) = FKind.minimumf.neutral .f32 hφ) (r : Fin 32) (j : Fin 320)
    (d w : Fin 128 → EReal)
    (hH : ∀ k, Hv (ix3 r j k) = max (Wmg - d k) W0)
    (hC : ∀ k, Cv (ix3 r j k) = Ideal.cmp .olt (d k) W0)
    (hT : ∀ k, Tv (ix3 r j k) = w k) (hZ : ∀ k, Zv (ix3 r j k) = W0) (hR : ∀ k, Rv (ix3 r j k) = Wrho) :
    multiReduction .minimumf [2] ⟨2, ![32, 320]⟩ (subf Hv (mulf Rv (select Cv Tv Zv))) 0x7F800000#32 h hφ hacc (ix2 r j)
      = Finset.univ.fold min Wpinf (fun k : Fin 128 => hardD (d k) (w k)) := by
  refine (multiReduction_minimumf_eq_fold (subf Hv (mulf Rv (select Cv Tv Zv))) 0x7F800000#32 h hφ hacc (ix2 r j)).trans ?_
  refine (h.fold_filter_drop_single _ _ _ (ix2 r j)).trans ?_
  refine congrArg (fun f => Finset.fold min Wpinf f (Finset.univ : Finset (Fin 128))) (funext fun (k : Fin 128) => ?_)
  have hl := lift_last_128 h r j k
  show subf Hv (mulf Rv (select Cv Tv Zv)) (h.lift (ix2 r j) k) = hardD (d k) (w k)
  rw [hl]
  show Hv (ix3 r j (⟨k.val, k.isLt⟩ : Fin 128)) - Rv (ix3 r j (⟨k.val, k.isLt⟩ : Fin 128)) * Scalar.select (Cv (ix3 r j (⟨k.val, k.isLt⟩ : Fin 128))) (Tv (ix3 r j (⟨k.val, k.isLt⟩ : Fin 128))) (Zv (ix3 r j (⟨k.val, k.isLt⟩ : Fin 128))) = _
  rw [hH, hC, hT, hZ, hR]
  rfl

/-- The maximum over the last axis of (hinge × selected weight), at (r, j): the fold of max from -∞ over the stretch of
    the semihard terms, when the vectors hold, entry by entry, the hinge, the mask, the weight and zero. -/
theorem max_stretch_64 (Hv Tv Zv : FVec Ideal ⟨3, ![32, 320, 64]⟩ .f32) (Cv : IVec ⟨3, ![32, 320, 64]⟩ 1)
    (h : (⟨3, ![32, 320, 64]⟩ : Shape).Reduces [2] (⟨2, ![32, 320]⟩ : Shape)) (hφ : FKind.Formats .f32)
    (hacc : (0xFF800000#32 : BitVec 32) = FKind.maximumf.neutral .f32 hφ) (r : Fin 32) (j : Fin 320)
    (d w : Fin 64 → EReal)
    (hH : ∀ k, Hv (ix3 r j k) = max (Wmg - d k) W0)
    (hC : ∀ k, Cv (ix3 r j k) = IntOp.andi (Ideal.cmp .oge (d k) W0) (Ideal.cmp .olt (d k) Wmg))
    (hT : ∀ k, Tv (ix3 r j k) = w k) (hZ : ∀ k, Zv (ix3 r j k) = W0) :
    multiReduction .maximumf [2] ⟨2, ![32, 320]⟩ (mulf Hv (select Cv Tv Zv)) 0xFF800000#32 h hφ hacc (ix2 r j)
      = Finset.univ.fold max Wninf (fun k : Fin 64 => semD (d k) (w k)) := by
  refine (Ideal.multiReduction_maximumf_single (mulf Hv (select Cv Tv Zv)) 0xFF800000#32 h hφ hacc (ix2 r j)).trans ?_
  refine congrArg (fun f => Finset.fold max Wninf f (Finset.univ : Finset (Fin 64))) (funext fun (k : Fin 64) => ?_)
  have hl := lift_last_64 h r j k
  show mulf Hv (select Cv Tv Zv) (h.lift (ix2 r j) k) = semD (d k) (w k)
  rw [hl]
  show Hv (ix3 r j (⟨k.val, k.isLt⟩ : Fin 64)) * Scalar.select (Cv (ix3 r j (⟨k.val, k.isLt⟩ : Fin 64))) (Tv (ix3 r j (⟨k.val, k.isLt⟩ : Fin 64))) (Zv (ix3 r j (⟨k.val, k.isLt⟩ : Fin 64))) = _
  rw [hH, hC, hT, hZ]
  rfl

/-- The minimum over the last axis of (hinge − ρ × selected weight), at (r, j): the fold of min from +∞ over the stretch
    of the hard terms. -/
theorem min_stretch_64 (Hv Tv Zv Rv : FVec Ideal ⟨3, ![32, 320, 64]⟩ .f32) (Cv : IVec ⟨3, ![32, 320, 64]⟩ 1)
    (h : (⟨3, ![32, 320, 64]⟩ : Shape).Reduces [2] (⟨2, ![32, 320]⟩ : Shape)) (hφ : FKind.Formats .f32)
    (hacc : (0x7F800000#32 : BitVec 32) = FKind.minimumf.neutral .f32 hφ) (r : Fin 32) (j : Fin 320)
    (d w : Fin 64 → EReal)
    (hH : ∀ k, Hv (ix3 r j k) = max (Wmg - d k) W0)
    (hC : ∀ k, Cv (ix3 r j k) = Ideal.cmp .olt (d k) W0)
    (hT : ∀ k, Tv (ix3 r j k) = w k) (hZ : ∀ k, Zv (ix3 r j k) = W0) (hR : ∀ k, Rv (ix3 r j k) = Wrho) :
    multiReduction .minimumf [2] ⟨2, ![32, 320]⟩ (subf Hv (mulf Rv (select Cv Tv Zv))) 0x7F800000#32 h hφ hacc (ix2 r j)
      = Finset.univ.fold min Wpinf (fun k : Fin 64 => hardD (d k) (w k)) := by
  refine (multiReduction_minimumf_eq_fold (subf Hv (mulf Rv (select Cv Tv Zv))) 0x7F800000#32 h hφ hacc (ix2 r j)).trans ?_
  refine (h.fold_filter_drop_single _ _ _ (ix2 r j)).trans ?_
  refine congrArg (fun f => Finset.fold min Wpinf f (Finset.univ : Finset (Fin 64))) (funext fun (k : Fin 64) => ?_)
  have hl := lift_last_64 h r j k
  show subf Hv (mulf Rv (select Cv Tv Zv)) (h.lift (ix2 r j) k) = hardD (d k) (w k)
  rw [hl]
  show Hv (ix3 r j (⟨k.val, k.isLt⟩ : Fin 64)) - Rv (ix3 r j (⟨k.val, k.isLt⟩ : Fin 64)) * Scalar.select (Cv (ix3 r j (⟨k.val, k.isLt⟩ : Fin 64))) (Tv (ix3 r j (⟨k.val, k.isLt⟩ : Fin 64))) (Zv (ix3 r j (⟨k.val, k.isLt⟩ : Fin 64))) = _
  rw [hH, hC, hT, hZ, hR]
  rfl

/-! ## The sums over a block's columns and rows -/

/-- The sum over the 320 columns of row r. -/
theorem sum_cols (u : FVec Ideal ⟨2, ![32, 320]⟩ .f32) (h : (⟨2, ![32, 320]⟩ : Shape).Reduces [1] (⟨1, ![32]⟩ : Shape))
    (hφ : FKind.Formats .f32) (hacc : (0x00000000#32 : BitVec 32) = FKind.add.neutral .f32 hφ) (r : Fin 32) :
    multiReduction .add [1] ⟨1, ![32]⟩ u 0x00000000#32 h hφ hacc (ix1 r) = ∑ j : Fin 320, u (ix2 r j) := by
  refine (Ideal.multiReduction_add_single u 0x00000000#32 h hφ hacc (ix1 r)).trans ?_
  refine Finset.sum_congr rfl fun (j : Fin 320) _ => congrArg u ?_
  funext c; apply Fin.ext
  fin_cases c <;> rfl

/-- The sum over the 32 rows of a one-column block. -/
theorem sum_rows (v : FVec Ideal ⟨2, ![32, 1]⟩ .f32) (h : (⟨2, ![32, 1]⟩ : Shape).Reduces [0] (⟨1, ![1]⟩ : Shape))
    (hφ : FKind.Formats .f32) (hacc : (0x00000000#32 : BitVec 32) = FKind.add.neutral .f32 hφ) (z : Fin 1) :
    multiReduction .add [0] ⟨1, ![1]⟩ v 0x00000000#32 h hφ hacc (ix1 z) = ∑ r : Fin 32, v (ix2 r z) := by
  refine (Ideal.multiReduction_add_single v 0x00000000#32 h hφ hacc (ix1 z)).trans ?_
  refine Finset.sum_congr rfl fun (r : Fin 32) _ => congrArg v ?_
  funext c; apply Fin.ext
  fin_cases c <;> rfl

/-- A vector of 32 entries laid out as one column: entry (r, 0) is entry r. -/
theorem col_cast {α : Type} (w : (⟨1, ![32]⟩ : Shape).Idx → α) (h : (⟨1, ![32]⟩ : Shape).ShapeCasts ⟨2, ![32, 1]⟩) (r : Fin 32) (z : Fin 1) :
    shapeCast ⟨2, ![32, 1]⟩ w h (ix2 r z) = w (ix1 r) :=
  shapeCast_apply w h (ix2 r z) (ix1 r) (by
    rw [Shape.rowMajor_val_one, Shape.rowMajor_val_two]
    show r.val = r.val * 1 + z.val
    have := z.isLt
    omega)

/-- The running maximum after a stretch: the running value's entry and the stretch's maximum. -/
theorem run_max_128 (base : FVec Ideal ⟨2, ![32, 320]⟩ .f32) (Hv Tv Zv : FVec Ideal ⟨3, ![32, 320, 128]⟩ .f32) (Cv : IVec ⟨3, ![32, 320, 128]⟩ 1)
    (h : (⟨3, ![32, 320, 128]⟩ : Shape).Reduces [2] (⟨2, ![32, 320]⟩ : Shape)) (hφ : FKind.Formats .f32)
    (hacc : (0xFF800000#32 : BitVec 32) = FKind.maximumf.neutral .f32 hφ) (r : Fin 32) (j : Fin 320)
    (d w : Fin 128 → EReal)
    (hH : ∀ k, Hv (ix3 r j k) = max (Wmg - d k) W0)
    (hC : ∀ k, Cv (ix3 r j k) = IntOp.andi (Ideal.cmp .oge (d k) W0) (Ideal.cmp .olt (d k) Wmg))
    (hT : ∀ k, Tv (ix3 r j k) = w k) (hZ : ∀ k, Zv (ix3 r j k) = W0) :
    maximumf base (multiReduction .maximumf [2] ⟨2, ![32, 320]⟩ (mulf Hv (select Cv Tv Zv)) 0xFF800000#32 h hφ hacc) (ix2 r j)
      = max (base (ix2 r j)) (Finset.univ.fold max Wninf (fun k : Fin 128 => semD (d k) (w k))) :=
  congrArg (fun y : EReal => max (base (ix2 r j)) y) (max_stretch_128 Hv Tv Zv Cv h hφ hacc r j d w hH hC hT hZ)

/-- The running minimum after a stretch. -/
theorem run_min_128 (base : FVec Ideal ⟨2, ![32, 320]⟩ .f32) (Hv Tv Zv Rv : FVec Ideal ⟨3, ![32, 320, 128]⟩ .f32) (Cv : IVec ⟨3, ![32, 320, 128]⟩ 1)
    (h : (⟨3, ![32, 320, 128]⟩ : Shape).Reduces [2] (⟨2, ![32, 320]⟩ : Shape)) (hφ : FKind.Formats .f32)
    (hacc : (0x7F800000#32 : BitVec 32) = FKind.minimumf.neutral .f32 hφ) (r : Fin 32) (j : Fin 320)
    (d w : Fin 128 → EReal)
    (hH : ∀ k, Hv (ix3 r j k) = max (Wmg - d k) W0)
    (hC : ∀ k, Cv (ix3 r j k) = Ideal.cmp .olt (d k) W0)
    (hT : ∀ k, Tv (ix3 r j k) = w k) (hZ : ∀ k, Zv (ix3 r j k) = W0) (hR : ∀ k, Rv (ix3 r j k) = Wrho) :
    minimumf base (multiReduction .minimumf [2] ⟨2, ![32, 320]⟩ (subf Hv (mulf Rv (select Cv Tv Zv))) 0x7F800000#32 h hφ hacc) (ix2 r j)
      = min (base (ix2 r j)) (Finset.univ.fold min Wpinf (fun k : Fin 128 => hardD (d k) (w k))) :=
  congrArg (fun y : EReal => min (base (ix2 r j)) y) (min_stretch_128 Hv Tv Zv Rv Cv h hφ hacc r j d w hH hC hT hZ hR)

/-- The running maximum after a stretch: the running value's entry and the stretch's maximum. -/
theorem run_max_64 (base : FVec Ideal ⟨2, ![32, 320]⟩ .f32) (Hv Tv Zv : FVec Ideal ⟨3, ![32, 320, 64]⟩ .f32) (Cv : IVec ⟨3, ![32, 320, 64]⟩ 1)
    (h : (⟨3, ![32, 320, 64]⟩ : Shape).Reduces [2] (⟨2, ![32, 320]⟩ : Shape)) (hφ : FKind.Formats .f32)
    (hacc : (0xFF800000#32 : BitVec 32) = FKind.maximumf.neutral .f32 hφ) (r : Fin 32) (j : Fin 320)
    (d w : Fin 64 → EReal)
    (hH : ∀ k, Hv (ix3 r j k) = max (Wmg - d k) W0)
    (hC : ∀ k, Cv (ix3 r j k) = IntOp.andi (Ideal.cmp .oge (d k) W0) (Ideal.cmp .olt (d k) Wmg))
    (hT : ∀ k, Tv (ix3 r j k) = w k) (hZ : ∀ k, Zv (ix3 r j k) = W0) :
    maximumf base (multiReduction .maximumf [2] ⟨2, ![32, 320]⟩ (mulf Hv (select Cv Tv Zv)) 0xFF800000#32 h hφ hacc) (ix2 r j)
      = max (base (ix2 r j)) (Finset.univ.fold max Wninf (fun k : Fin 64 => semD (d k) (w k))) :=
  congrArg (fun y : EReal => max (base (ix2 r j)) y) (max_stretch_64 Hv Tv Zv Cv h hφ hacc r j d w hH hC hT hZ)

/-- The running minimum after a stretch. -/
theorem run_min_64 (base : FVec Ideal ⟨2, ![32, 320]⟩ .f32) (Hv Tv Zv Rv : FVec Ideal ⟨3, ![32, 320, 64]⟩ .f32) (Cv : IVec ⟨3, ![32, 320, 64]⟩ 1)
    (h : (⟨3, ![32, 320, 64]⟩ : Shape).Reduces [2] (⟨2, ![32, 320]⟩ : Shape)) (hφ : FKind.Formats .f32)
    (hacc : (0x7F800000#32 : BitVec 32) = FKind.minimumf.neutral .f32 hφ) (r : Fin 32) (j : Fin 320)
    (d w : Fin 64 → EReal)
    (hH : ∀ k, Hv (ix3 r j k) = max (Wmg - d k) W0)
    (hC : ∀ k, Cv (ix3 r j k) = Ideal.cmp .olt (d k) W0)
    (hT : ∀ k, Tv (ix3 r j k) = w k) (hZ : ∀ k, Zv (ix3 r j k) = W0) (hR : ∀ k, Rv (ix3 r j k) = Wrho) :
    minimumf base (multiReduction .minimumf [2] ⟨2, ![32, 320]⟩ (subf Hv (mulf Rv (select Cv Tv Zv))) 0x7F800000#32 h hφ hacc) (ix2 r j)
      = min (base (ix2 r j)) (Finset.univ.fold min Wpinf (fun k : Fin 64 => hardD (d k) (w k))) :=
  congrArg (fun y : EReal => min (base (ix2 r j)) y) (min_stretch_64 Hv Tv Zv Rv Cv h hφ hacc r j d w hH hC hT hZ hR)

/-- The per-pair loss from the semihard maximum `s` and the hard minimum `n`, times the pair weight `p`, entry by entry. -/
theorem combine_at (s n p : FVec Ideal ⟨2, ![32, 320]⟩ .f32) (hlt : 1 < 32) (i : (⟨2, ![32, 320]⟩ : Shape).Idx) :
    mulf (addf s (mulf (sitofp .f32 (extui 32 (cmpf .ole s (broadcast ⟨2, ![32, 320]⟩ (FloatOps.ofBits .f32 0x3C23D70A#32))) hlt))
        (mulf (addf n (broadcast ⟨2, ![32, 320]⟩ (FloatOps.ofBits .f32 0x41200000#32)))
          (sitofp .f32 (extui 32 (cmpf .olt n (broadcast ⟨2, ![32, 320]⟩ (FloatOps.ofBits .f32 0x00000000#32))) hlt))))) p i
      = posK (s i) (n i) * p i := rfl

end Cert.Triplet
end
-- ==== Proof.TileValue.lean ====
import proofs.«150024_j12395275616913_2_alg».proof.Proof.Gen.KernelIdeal.Skeleton
import proofs.«150024_j12395275616913_2_alg».proof.Proof.BlockRead

/-!
The kernel body's arithmetic, read at an index at the extended reals: each named piece of the body as a function of
the step's block of distances and block of pair weights, down to the one number the step adds to its accumulator —
the sum over the block's 32 rows and 320 columns of the row's weighted pair loss, in the three-stretch arrangement.
-/

set_option maxRecDepth 16384

noncomputable section

namespace Cert.KernelIdeal.TileValue

open Idealize.ShloMosaic ValueIdx Cert.KernelIdeal Cert.KernelIdeal.Gen Cert.Triplet

abbrev B := FVec Ideal S32x320 .f32

theorem pay3_eq (x0 : B) : k0_pay3 (F := Ideal) x0 = x0 := by unfold k0_pay3; exact shapeCast_self _ _
theorem pay4_eq (x1 : B) : k0_pay4 (F := Ideal) x1 = x1 := by unfold k0_pay4; exact shapeCast_self _ _

/-- One minus the pair weight. -/
theorem pay5_at (x1 : B) (r : Fin 32) (k : Fin 320) : k0_pay5 (F := Ideal) x1 (ix2 r k) = W1 - x1 (ix2 r k) := by
  unfold k0_pay5; rw [pay4_eq]; rfl

/-! ### First stretch (columns 0 … 127) -/

theorem pay7_at (x0 : B) (r : Fin 32) (j : Fin 320) (k : Fin 128) :
    k0_pay7 (F := Ideal) x0 (ix3 r j k) = x0 (ix2 r (st0 k)) - x0 (ix2 r j) := by
  unfold k0_pay7; rw [pay3_eq]
  exact congrArg₂ (fun x y : EReal => x - y) ((along_mid_128 _ _ _ r j k).trans (stretch_0 x0 _ r k)) (along_last_128 x0 _ _ r j k)

theorem pay8_at (x0 : B) (r : Fin 32) (j : Fin 320) (k : Fin 128) :
    k0_pay8 (F := Ideal) x0 (ix3 r j k) = max (Wmg - (x0 (ix2 r (st0 k)) - x0 (ix2 r j))) W0 := by
  unfold k0_pay8
  show max (Wmg - k0_pay7 (F := Ideal) x0 (ix3 r j k)) W0 = _
  rw [pay7_at]

theorem pay9_at (x1 : B) (r : Fin 32) (j : Fin 320) (k : Fin 128) :
    k0_pay9 (F := Ideal) x1 (ix3 r j k) = x1 (ix2 r j) * (W1 - x1 (ix2 r (st0 k))) := by
  unfold k0_pay9; rw [pay4_eq]
  exact congrArg₂ (fun x y : EReal => x * y) (along_last_128 x1 _ _ r j k)
    ((along_mid_128 _ _ _ r j k).trans ((stretch_0 (k0_pay5 (F := Ideal) x1) _ r k).trans (pay5_at x1 r (st0 k))))

theorem pay11_at (x0 : B) (r : Fin 32) (j : Fin 320) (k : Fin 128) :
    k0_pay11 (F := Ideal) x0 (ix3 r j k) = Ideal.cmp .olt (x0 (ix2 r (st0 k)) - x0 (ix2 r j)) W0 := by
  unfold k0_pay11
  show Ideal.cmp .olt (k0_pay7 (F := Ideal) x0 (ix3 r j k)) W0 = _
  rw [pay7_at]

theorem pay10_at (x0 x1 : B) (r : Fin 32) (j : Fin 320) :
    k0_pay10 (F := Ideal) x0 x1 (ix2 r j)
      = max W0 (Finset.univ.fold max Wninf fun k : Fin 128 =>
          semD (x0 (ix2 r (st0 k)) - x0 (ix2 r j)) (x1 (ix2 r j) * (W1 - x1 (ix2 r (st0 k))))) := by
  dsimp only [k0_pay10]
  refine (run_max_128 _ _ _ _ _ _ _ _ r j
    (fun k => x0 (ix2 r (st0 k)) - x0 (ix2 r j)) (fun k => x1 (ix2 r j) * (W1 - x1 (ix2 r (st0 k)))) ?_ ?_ ?_ ?_).trans rfl
  · intro k; exact pay8_at x0 r j k
  · intro k
    show IntOp.andi (Ideal.cmp .oge (k0_pay7 (F := Ideal) x0 (ix3 r j k)) W0) (Ideal.cmp .olt (k0_pay7 (F := Ideal) x0 (ix3 r j k)) Wmg) = _
    rw [pay7_at]
  · intro k; exact pay9_at x1 r j k
  · intro k; rfl

/-! ### Second stretch (columns 128 … 255) -/

theorem pay13_at (v4 : B) (r : Fin 32) (j : Fin 320) (k : Fin 128) :
    k0_pay13 (F := Ideal) v4 (ix3 r j k) = v4 (ix2 r (st1 k)) - v4 (ix2 r j) := by
  unfold k0_pay13
  exact congrArg₂ (fun x y : EReal => x - y) ((along_mid_128 _ _ _ r j k).trans (stretch_1 v4 _ r k)) (along_last_128 v4 _ _ r j k)

theorem pay14_at (v4 : B) (r : Fin 32) (j : Fin 320) (k : Fin 128) :
    k0_pay14 (F := Ideal) v4 (ix3 r j k) = max (Wmg - (v4 (ix2 r (st1 k)) - v4 (ix2 r j))) W0 := by
  unfold k0_pay14
  show max (Wmg - k0_pay13 (F := Ideal) v4 (ix3 r j k)) W0 = _
  rw [pay13_at]

theorem pay15_at (v6 v8 : B) (r : Fin 32) (j : Fin 320) (k : Fin 128) :
    k0_pay15 (F := Ideal) v6 v8 (ix3 r j k) = v6 (ix2 r j) * v8 (ix2 r (st1 k)) := by
  unfold k0_pay15
  exact congrArg₂ (fun x y : EReal => x * y) (along_last_128 v6 _ _ r j k)
    ((along_mid_128 _ _ _ r j k).trans (stretch_1 v8 _ r k))

theorem pay16_at (v4 v6 v8 v36 : B) (r : Fin 32) (j : Fin 320) :
    k0_pay16 (F := Ideal) v4 v6 v8 v36 (ix2 r j)
      = max (v36 (ix2 r j)) (Finset.univ.fold max Wninf fun k : Fin 128 =>
          semD (v4 (ix2 r (st1 k)) - v4 (ix2 r j)) (v6 (ix2 r j) * v8 (ix2 r (st1 k)))) := by
  dsimp only [k0_pay16]
  refine run_max_128 _ _ _ _ _ _ _ _ r j
    (fun k => v4 (ix2 r (st1 k)) - v4 (ix2 r j)) (fun k => v6 (ix2 r j) * v8 (ix2 r (st1 k))) ?_ ?_ ?_ ?_
  · intro k; exact pay14_at v4 r j k
  · intro k
    show IntOp.andi (Ideal.cmp .oge (k0_pay13 (F := Ideal) v4 (ix3 r j k)) W0) (Ideal.cmp .olt (k0_pay13 (F := Ideal) v4 (ix3 r j k)) Wmg) = _
    rw [pay13_at]
  · intro k; exact pay15_at v6 v8 r j k
  · intro k; rfl

theorem pay17_at (v4 v6 v8 v10 : B) (v21 v26 v39 : FVec Ideal S32x320x128 .f32) (v38 : IVec S32x320x128 1)
    (r : Fin 32) (j : Fin 320) (d0 w0 : Fin 128 → EReal)
    (h21 : ∀ k, v21 (ix3 r j k) = max (Wmg - d0 k) W0) (h26 : ∀ k, v26 (ix3 r j k) = w0 k)
    (h38 : ∀ k, v38 (ix3 r j k) = Ideal.cmp .olt (d0 k) W0) (h39 : ∀ k, v39 (ix3 r j k) = W0) :
    k0_pay17 (F := Ideal) v4 v6 v8 v10 v21 v26 v38 v39 (ix2 r j)
      = min (min (v10 (ix2 r j)) (Finset.univ.fold min Wpinf fun k : Fin 128 => hardD (d0 k) (w0 k)))
          (Finset.univ.fold min Wpinf fun k : Fin 128 =>
            hardD (v4 (ix2 r (st1 k)) - v4 (ix2 r j)) (v6 (ix2 r j) * v8 (ix2 r (st1 k)))) := by
  dsimp only [k0_pay17]
  refine (run_min_128 _ _ _ _ _ _ _ _ _ r j
    (fun k => v4 (ix2 r (st1 k)) - v4 (ix2 r j)) (fun k => v6 (ix2 r j) * v8 (ix2 r (st1 k))) ?_ ?_ ?_ ?_ ?_).trans ?_
  · intro k; exact pay14_at v4 r j k
  · intro k
    show Ideal.cmp .olt (k0_pay13 (F := Ideal) v4 (ix3 r j k)) W0 = _
    rw [pay13_at]
  · intro k; exact pay15_at v6 v8 r j k
  · intro k; rfl
  · intro k; rfl
  · refine congrArg (fun y : EReal => min y _) ?_
    exact run_min_128 _ _ _ _ _ _ _ _ _ r j d0 w0 h21 h38 h26 h39 (fun k => rfl)

/-! ### Third stretch (columns 256 … 319) and the block sum -/

theorem pay18_at (v8 : B) (r : Fin 32) (k : Fin 64) : k0_pay18 v8 (ix2 r k) = v8 (ix2 r (st2 k)) := by
  unfold k0_pay18
  exact stretch_2 v8 _ r k

theorem pay19_at (v4 : B) (r : Fin 32) (j : Fin 320) (k : Fin 64) :
    k0_pay19 (F := Ideal) v4 (ix3 r j k) = v4 (ix2 r (st2 k)) - v4 (ix2 r j) := by
  unfold k0_pay19
  exact congrArg₂ (fun x y : EReal => x - y) ((along_mid_64 _ _ _ r j k).trans (stretch_2 v4 _ r k)) (along_last_64 v4 _ _ r j k)

end Cert.KernelIdeal.TileValue
end
-- ==== Proof.TileSum.lean ====
import proofs.«150024_j12395275616913_2_alg».proof.Proof.TileValue
import proofs.«150024_j12395275616913_2_alg».proof.Proof.TileOut

/-!
The number one grid step adds to its core's accumulator: the sum over the step's block of the rows' weighted pair
losses, in the three-stretch arrangement.
-/

set_option maxRecDepth 16384

noncomputable section

namespace Cert.KernelIdeal.TileValue

open Idealize.ShloMosaic ValueIdx Cert.KernelIdeal Cert.KernelIdeal.Gen Cert.Triplet

/-- The number a step adds, from the running values after two stretches: the sum over the block of the pair losses
    (the third stretch folded in), each times its pair weight. -/
theorem pay20_at (v6 v71 v80 : B) (v82 : FVec Ideal S32x64 .f32) (v87 : FVec Ideal S32x320x64 .f32) :
    k0_pay20 (F := Ideal) v6 v71 v80 v82 v87 (ix1 (⟨0, by decide⟩ : Fin 1))
      = ∑ r : Fin 32, ∑ j : Fin 320,
          posK (max (v71 (ix2 r j)) (Finset.univ.fold max Wninf fun k : Fin 64 =>
                  semD (v87 (ix3 r j k)) (v6 (ix2 r j) * v82 (ix2 r k))))
               (min (v80 (ix2 r j)) (Finset.univ.fold min Wpinf fun k : Fin 64 =>
                  hardD (v87 (ix3 r j k)) (v6 (ix2 r j) * v82 (ix2 r k)))) * v6 (ix2 r j) := by
  dsimp only [k0_pay20]
  refine (sum_rows _ _ _ _ (⟨0, by decide⟩ : Fin 1)).trans (Finset.sum_congr rfl fun r _ => ?_)
  refine (col_cast _ _ r _).trans ?_
  refine (sum_cols _ _ _ _ r).trans (Finset.sum_congr rfl fun j _ => ?_)
  refine (combine_at _ _ _ _ (ix2 r j)).trans ?_
  refine congrArg₂ (fun s n : EReal => posK s n * v6 (ix2 r j)) ?_ ?_
  · refine run_max_64 _ _ _ _ _ _ _ _ r j (fun k => v87 (ix3 r j k)) (fun k => v6 (ix2 r j) * v82 (ix2 r k)) ?_ ?_ ?_ ?_
    · intro k; rfl
    · intro k; rfl
    · intro k
      exact congrArg₂ (fun x y : EReal => x * y) (along_last_64 v6 _ _ r j k) (along_mid_64 v82 _ _ r j k)
    · intro k; rfl
  · refine run_min_64 _ _ _ _ _ _ _ _ _ r j (fun k => v87 (ix3 r j k)) (fun k => v6 (ix2 r j) * v82 (ix2 r k)) ?_ ?_ ?_ ?_ ?_
    · intro k; rfl
    · intro k; rfl
    · intro k
      exact congrArg₂ (fun x y : EReal => x * y) (along_last_64 v6 _ _ r j k) (along_mid_64 v82 _ _ r j k)
    · intro k; rfl
    · intro k; rfl

/-- THE STEP'S NUMBER: the sum over the block's rows and columns of the row's weighted pair loss in the
    three-stretch arrangement, the row's distances and pair weights being the block's row. -/
theorem tileVec_eq (x0 x1 : B) :
    TileOut.tileVec (F := Ideal) x0 x1 (ix1 (⟨0, by decide⟩ : Fin 1))
      = ∑ r : Fin 32, ∑ j : Fin 320, rowK (fun k => x0 (ix2 r k)) (fun k => x1 (ix2 r k)) j := by
  unfold TileOut.tileVec
  rw [pay20_at]
  simp only [pay3_eq, pay4_eq]
  refine Finset.sum_congr rfl fun r _ => Finset.sum_congr rfl fun j _ => ?_
  unfold rowK
  refine congrArg₂ (fun s n : EReal => posK s n * x1 (ix2 r j)) ?_ ?_
  · rw [pay16_at, pay10_at]
    simp only [pay19_at, pay18_at, pay5_at]
    rfl
  · rw [pay17_at x0 x1 (k0_pay5 (F := Ideal) x1) k0_pay6 (k0_pay8 (F := Ideal) x0) (k0_pay9 (F := Ideal) x1) k0_pay12 (k0_pay11 (F := Ideal) x0) r j
      (fun k => x0 (ix2 r (st0 k)) - x0 (ix2 r j)) (fun k => x1 (ix2 r j) * (W1 - x1 (ix2 r (st0 k))))
      (fun k => pay8_at x0 r j k) (fun k => pay9_at x1 r j k) (fun k => pay11_at x0 r j k) (fun k => rfl)]
    simp only [pay19_at, pay18_at, pay5_at]
    rfl

end Cert.KernelIdeal.TileValue
end
-- ==== Proof.KernelSum.lean ====
import proofs.«150024_j12395275616913_2_alg».proof.Proof.KernelTail
import proofs.«150024_j12395275616913_2_alg».proof.Proof.TileSum

/-!
A step's two blocks are 32 consecutive rows of the distance matrix and of the pair-weight matrix, so a step's number is the
sum of 32 row sums, and the ten steps' rows are all 320 rows, each once.
-/

set_option maxRecDepth 16384

noncomputable section

namespace Cert.KernelIdeal.TileOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen ValueIdx Cert.Triplet

variable (m : (ℓ : Loc nD τ sig) → Buf (Elt Ideal) ℓ)

/-! ## A step's blocks are 32 consecutive rows of the two matrices -/

theorem idx_in0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_in1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Row r of step t's block of distances is row 32·t + r of the distance matrix. -/
theorem iblk0_at (c : Dev nD) (t : Fin cfg0.N) (r : Fin 32) (k i : Fin 320) (hi : i.val = 32 * t.val + r.val) :
    iblk m c 0 t (ix2 r k) = V m c main_v54 (ix2 i k) := by
  show V m c main_v54 (((cfg0.win 0).blk t).view.emb (ix2 r k)) = _
  refine congrArg (V m c main_v54) (funext fun a => Fin.ext ?_)
  obtain ⟨e0, e1⟩ := idx_in0 t
  match a with
  | ⟨0, _⟩ => show win0_0.index t (0 : Fin 2) * 32 + 1 * r.val = i.val; omega
  | ⟨1, _⟩ => show win0_0.index t (1 : Fin 2) * 320 + 1 * k.val = k.val; omega

/-- Row r of step t's block of pair weights is row 32·t + r of the pair-weight matrix. -/
theorem iblk1_at (c : Dev nD) (t : Fin cfg0.N) (r : Fin 32) (k i : Fin 320) (hi : i.val = 32 * t.val + r.val) :
    iblk m c 1 t (ix2 r k) = V m c main_v33 (ix2 i k) := by
  show V m c main_v33 (((cfg0.win 1).blk t).view.emb (ix2 r k)) = _
  refine congrArg (V m c main_v33) (funext fun a => Fin.ext ?_)
  obtain ⟨e0, e1⟩ := idx_in1 t
  match a with
  | ⟨0, _⟩ => show win0_1.index t (0 : Fin 2) * 32 + 1 * r.val = i.val; omega
  | ⟨1, _⟩ => show win0_1.index t (1 : Fin 2) * 320 + 1 * k.val = k.val; omega

/-- The weighted loss of anchor row i summed over its pairs j, three-stretch arrangement, from the two matrices as the
    region finds them. -/
def rowSum (c : Dev nD) (i : Fin 320) : EReal :=
  ∑ j : Fin 320, rowK (fun k => V m c main_v54 (ix2 i k)) (fun k => V m c main_v33 (ix2 i k)) j

theorem N10 : cfg0.N = 10 := N_0

/-- Row r of step t. -/
def rowOf (t : Fin 10) (r : Fin 32) : Fin 320 := ⟨32 * t.val + r.val, by omega⟩

/-- A step's number is the sum of the row sums of its 32 rows. -/
theorem stepNum_rows (c : Dev nD) (t : Fin 10) :
    stepNum m c ⟨t.val, by rw [N10]; exact t.isLt⟩ = ∑ r : Fin 32, rowSum m c (rowOf t r) := by
  unfold stepNum
  rw [TileValue.tileVec_eq]
  refine Finset.sum_congr rfl fun r _ => ?_
  unfold rowSum
  refine Finset.sum_congr rfl fun j _ => ?_
  have e0 : (fun k => iblk m c 0 ⟨t.val, by rw [N10]; exact t.isLt⟩ (ix2 r k)) = fun k => V m c main_v54 (ix2 (rowOf t r) k) :=
    funext fun k => iblk0_at m c _ r k (rowOf t r) rfl
  have e1 : (fun k => iblk m c 1 ⟨t.val, by rw [N10]; exact t.isLt⟩ (ix2 r k)) = fun k => V m c main_v33 (ix2 (rowOf t r) k) :=
    funext fun k => iblk1_at m c _ r k (rowOf t r) rfl
  rw [e0, e1]

/-- The ten steps' rows are all 320 rows, each once. -/
theorem sum_steps (g : Fin 320 → EReal) : ∑ t : Fin 10, ∑ r : Fin 32, g (rowOf t r) = ∑ i : Fin 320, g i := by
  have h := Equiv.sum_comp (finProdFinEquiv : Fin 10 × Fin 32 ≃ Fin (10 * 32)) (fun i : Fin (10 * 32) => g ⟨i.val, i.isLt⟩)
  rw [Fintype.sum_prod_type] at h
  refine Eq.trans ?_ h
  refine Finset.sum_congr rfl fun t _ => Finset.sum_congr rfl fun r _ => congrArg g (Fin.ext ?_)
  show 32 * t.val + r.val = (finProdFinEquiv (t, r)).val
  rw [finProdFinEquiv_apply_val]
  show 32 * t.val + r.val = r.val + 32 * t.val
  omega

end Cert.KernelIdeal.TileOut
end
-- ==== Proof.KernelValue.lean ====
import proofs.«150024_j12395275616913_2_alg».proof.Proof.KernelSum

/-!
The kernel's numerator: the two corner cells of the result array hold the two cores' totals, which together are zero plus
the sum over all 320 anchor rows of the row sums (addition on the extended reals is commutative and associative).
-/

set_option maxRecDepth 16384

noncomputable section

namespace Cert.KernelIdeal.TileOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen ValueIdx Cert.Triplet

variable (m : (ℓ : Loc nD τ sig) → Buf (Elt Ideal) ℓ)

/-! ## The two corners of the result array are the two cores' totals -/

theorem lt4 : 0 + 4 < cfg0.N := by rw [N10]; decide
theorem lt9 : 5 + 4 < cfg0.N := by rw [N10]; decide

theorem emb_core0 : ((cfg0.win 2).blk ⟨0 + 4, lt4⟩).view.emb corner
    = (ix2 (⟨0, by decide⟩ : Fin 16) (⟨0, by decide⟩ : Fin 128) : S16x128.Idx) := by
  funext a; apply Fin.ext
  obtain ⟨e0, e1⟩ := idx_out ⟨0 + 4, lt4⟩
  match a with
  | ⟨0, _⟩ => exact (emb_corner_val ⟨0 + 4, lt4⟩ 0).trans (by rw [e0]; rfl)
  | ⟨1, _⟩ => exact (emb_corner_val ⟨0 + 4, lt4⟩ 1).trans (by rw [e1]; rfl)

theorem emb_core1 : ((cfg0.win 2).blk ⟨5 + 4, lt9⟩).view.emb corner
    = (ix2 (⟨8, by decide⟩ : Fin 16) (⟨0, by decide⟩ : Fin 128) : S16x128.Idx) := by
  funext a; apply Fin.ext
  obtain ⟨e0, e1⟩ := idx_out ⟨5 + 4, lt9⟩
  match a with
  | ⟨0, _⟩ => exact (emb_corner_val ⟨5 + 4, lt9⟩ 0).trans (by rw [e0]; rfl)
  | ⟨1, _⟩ => exact (emb_corner_val ⟨5 + 4, lt9⟩ 1).trans (by rw [e1]; rfl)

/-- Step n's number (n below 10). -/
def stepAt (c : Dev nD) (n : ℕ) (hn : n < 10) : EReal := stepNum m c ⟨n, by rw [N10]; exact hn⟩

theorem out_core0 (c : Dev nD) :
    (dats m 0 c).arrAt 2 cfg0.N (ix2 (⟨0, by decide⟩ : Fin 16) (⟨0, by decide⟩ : Fin 128))
      = W0 + stepAt m c 0 (by decide) + stepAt m c 1 (by decide) + stepAt m c 2 (by decide) + stepAt m c 3 (by decide) + stepAt m c 4 (by decide) := by
  rw [← emb_core0, arr_at_block m c ⟨0 + 4, lt4⟩ ((flush0_2 _).mpr rfl) corner]
  exact core_total m c 0 lt4 rfl

theorem out_core1 (c : Dev nD) :
    (dats m 0 c).arrAt 2 cfg0.N (ix2 (⟨8, by decide⟩ : Fin 16) (⟨0, by decide⟩ : Fin 128))
      = W0 + stepAt m c 5 (by decide) + stepAt m c 6 (by decide) + stepAt m c 7 (by decide) + stepAt m c 8 (by decide) + stepAt m c 9 (by decide) := by
  rw [← emb_core1, arr_at_block m c ⟨5 + 4, lt9⟩ ((flush0_2 _).mpr rfl) corner]
  exact core_total m c 5 lt9 rfl

/-- The ten steps' numbers add up to the sum of all 320 row sums. -/
theorem steps_total (c : Dev nD) :
    ∑ i : Fin 320, rowSum m c i
      = stepAt m c 0 (by decide) + stepAt m c 1 (by decide) + stepAt m c 2 (by decide) + stepAt m c 3 (by decide) + stepAt m c 4 (by decide)
        + stepAt m c 5 (by decide) + stepAt m c 6 (by decide) + stepAt m c 7 (by decide) + stepAt m c 8 (by decide) + stepAt m c 9 (by decide) := by
  have hsum : ∑ i : Fin 320, rowSum m c i = ∑ t : Fin 10, stepAt m c t.val t.isLt :=
    (sum_steps (rowSum m c)).symm.trans (Finset.sum_congr rfl fun t _ => (stepNum_rows m c t).symm)
  rw [hsum, Finset.sum_fin_eq_sum_range]
  simp only [Finset.sum_range_succ, Finset.sum_range_zero, zero_add]
  simp only [show (0 : ℕ) < 10 from by decide, show (1 : ℕ) < 10 from by decide, show (2 : ℕ) < 10 from by decide,
    show (3 : ℕ) < 10 from by decide, show (4 : ℕ) < 10 from by decide, show (5 : ℕ) < 10 from by decide,
    show (6 : ℕ) < 10 from by decide, show (7 : ℕ) < 10 from by decide, show (8 : ℕ) < 10 from by decide,
    show (9 : ℕ) < 10 from by decide, dite_true]

/-- THE KERNEL'S NUMERATOR: the two corners added are zero plus the sum over all anchor rows of the row sums. -/
theorem kernel_num (c : Dev nD) (z : S_.Idx) :
    (addf (fun i => shapeCast S_ (extractStridedSlice S1x1 ![0, 0] ((dats m 0 c).arrAt 2 cfg0.N) slices_S16x128_S1x1_0_0) shapeCasts_S1x1_S_ i)
        (fun i => shapeCast S_ (extractStridedSlice S1x1 ![8, 0] ((dats m 0 c).arrAt 2 cfg0.N) slices_S16x128_S1x1_8_0) shapeCasts_S1x1_S_ i) : FVec Ideal S_ .f32) z
      = W0 + ∑ i : Fin 320, rowSum m c i := by
  rw [num_corners, out_core0, out_core1, steps_total]
  simp only [W0_eq, zero_add, add_assoc]

end Cert.KernelIdeal.TileOut
end
-- ==== Proof.Prefix.lean ====
import proofs.«150024_j12395275616913_2_alg».proof.Proof.Gen.KernelIdeal.Frame
import proofs.«150024_j12395275616913_2_alg».proof.Proof.Gen.ReferenceIdeal.Read
import Idealize.ShloMosaic.Lib.StableHlo.Run

/-!
The matrices the kernel's region is launched on — distances of the embeddings, pair weights of the source embeddings — are
the reference's, as functions of the same arguments: the two programs compute them by the same host operations in the same order.
-/

set_option maxRecDepth 16384

noncomputable section

namespace Cert.KernelIdeal.Prefix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.StableHlo

variable (m : (ℓ : Loc nD τ sig) → Buf (Elt Ideal) ℓ)

set_option maxHeartbeats 4000000 in
/-- The pair weights the region finds are the reference's pair weights of the same source embeddings: the host lines
    that compute them are the same operations in the same order in the two programs. -/
theorem pw_same (c : Dev nD) :
    V m c main_v33 = Cert.ReferenceIdeal.Read.val_main_v33 (F := Ideal) (m ((c.tc : Thread nD τ).loc main_arg0)) := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results_simp
  rfl

set_option maxHeartbeats 4000000 in
/-- The distances the region finds are the reference's distances of the same embeddings. -/
theorem dist_same (c : Dev nD) :
    V m c main_v54 = Cert.ReferenceIdeal.Read.val_main_v61 (F := Ideal) (m ((c.tc : Thread nD τ).loc main_arg1)) := by
  dsimp only [V, V0]
  simp only [hostOps0, hostOps0_1, hostOps0_2, hostOps0_3, hostOps0_4, hostOps0_5, hostOps0_6, hostOps0_7,
    List.flatten_cons, List.flatten_nil, List.append_nil, List.cons_append, List.nil_append]
  after_results_simp
  rfl

end Cert.KernelIdeal.Prefix
end
-- ==== Proof.RefRead.lean ====
import proofs.«150024_j12395275616913_2_alg».proof.Proof.Gen.ReferenceIdeal.Read
import proofs.«150024_j12395275616913_2_alg».proof.Proof.TripletLaws

/-!
The reference, read at an index at the extended reals: with `D` the matrix of pairwise distances of the embeddings and
`P` the matrix of pair weights of the source embeddings (both computed by the same operations in the two programs), the
matrix the reference sums is, at (i, j), row i's weighted pair loss at j — all k at once, masks on the hinge.
-/

set_option maxRecDepth 16384

noncomputable section

namespace Cert.ReferenceIdeal.RefValue

open Idealize.ShloMosaic ValueIdx Cert.ReferenceIdeal Cert.ReferenceIdeal.Gen Cert.ReferenceIdeal.Read Cert.Triplet

abbrev A0 := (⟨S2x320x128, .f32⟩ : BufTy).Contents (Elt Ideal)
abbrev A1 := (⟨S320x128, .f32⟩ : BufTy).Contents (Elt Ideal)

/-- The distances of the embeddings. -/
abbrev Dm (x1 : A1) : S320x320.Idx → EReal := val_main_v61 (F := Ideal) x1
/-- The pair weights. -/
abbrev Pm (x0 : A0) : S320x320.Idx → EReal := val_main_v33 (F := Ideal) x0

/-- Every pair weight is 1 / (1 + e^z) for some extended real z, so it lies in [0, 1]. -/
theorem pw_bounds (x0 : A0) (i : S320x320.Idx) : 0 ≤ Pm x0 i ∧ Pm x0 i ≤ 1 :=
  sigmoid_bounds (val_main_v28 (F := Ideal) x0 i)

theorem v64_at (x1 : A1) (i j k : Fin 320) : val_main_v64 (F := Ideal) x1 (ix3 i j k) = Dm x1 (ix2 i k) := by
  rw [val_main_v64_apply, val_main_v62_apply]
  exact congrArg (val_main_v61 (F := Ideal) x1) (funext fun a => Fin.ext (by match a with | ⟨0, _⟩ => rfl | ⟨1, _⟩ => rfl))

theorem v65_at (x1 : A1) (i j k : Fin 320) : val_main_v65 (F := Ideal) x1 (ix3 i j k) = Dm x1 (ix2 i j) := by
  rw [val_main_v65_apply, val_main_v63_apply]
  exact congrArg (val_main_v61 (F := Ideal) x1) (funext fun a => Fin.ext (by match a with | ⟨0, _⟩ => rfl | ⟨1, _⟩ => rfl))

/-- The hinge of (i, j, k). -/
theorem v70_at (x1 : A1) (i j k : Fin 320) :
    val_main_v70 (F := Ideal) x1 (ix3 i j k) = hinge (Dm x1 (ix2 i k)) (Dm x1 (ix2 i j)) := by
  rw [val_main_v70_apply, val_main_v68_apply, val_main_v66_apply, v64_at, v65_at]
  rfl

/-- The triplet weight of (i, j, k). -/
theorem v40_at (x0 : A0) (i j k : Fin 320) :
    val_main_v40 (F := Ideal) x0 (ix3 i j k) = tw (fun k => Pm x0 (ix2 i k)) j k := by
  rw [val_main_v40_apply, val_main_v38_apply, val_main_v34_apply, val_main_v39_apply, val_main_v37_apply, val_main_v35_apply]
  have e1 : idx_main_v34 (idx_main_v38 (ix3 i j k)) = ix2 i j := (funext fun a => Fin.ext (by match a with | ⟨0, _⟩ => rfl | ⟨1, _⟩ => rfl))
  have e2 : idx_main_v35 (idx_main_v39 (ix3 i j k)) = ix2 i k := (funext fun a => Fin.ext (by match a with | ⟨0, _⟩ => rfl | ⟨1, _⟩ => rfl))
  rw [e1, e2]
  rfl

theorem v78_at (x0 : A0) (x1 : A1) (i j k : Fin 320) :
    val_main_v78 (F := Ideal) x0 x1 (ix3 i j k)
      = semR (Dm x1 (ix2 i k)) (Dm x1 (ix2 i j)) (tw (fun k => Pm x0 (ix2 i k)) j k) := by
  rw [val_main_v78_apply, val_main_v77_apply, val_main_v76_apply, val_main_v75_apply, val_main_v72_apply, val_main_v74_apply,
    v70_at, v40_at]
  rfl

theorem v86_at (x0 : A0) (x1 : A1) (i j k : Fin 320) :
    val_main_v86 (F := Ideal) x0 x1 (ix3 i j k)
      = hardR (Dm x1 (ix2 i k)) (Dm x1 (ix2 i j)) (tw (fun k => Pm x0 (ix2 i k)) j k) := by
  rw [val_main_v86_apply, val_main_v85_apply, val_main_v83_apply, val_main_v82_apply, val_main_v81_apply, v70_at, v40_at]
  rfl

theorem red3 : S320x320x320.Reduces [2] S320x320 := by decide

theorem lift3 (i j : Fin 320) (k : Fin (S320x320x320.size 2)) :
    red3.lift (ix2 i j) k = ix3 i j (⟨k.val, k.isLt⟩ : Fin 320) := by
  funext c; apply Fin.ext
  fin_cases c <;> rfl

/-- The semihard maximum of (i, j): over all k at once, from -∞. -/
theorem v79_at (x0 : A0) (x1 : A1) (i j : Fin 320) :
    val_main_v79 (F := Ideal) x0 x1 (ix2 i j)
      = Finset.univ.fold max Wninf fun k : Fin 320 =>
          semR (Dm x1 (ix2 i k)) (Dm x1 (ix2 i j)) (tw (fun k => Pm x0 (ix2 i k)) j k) := by
  unfold val_main_v79
  rw [Host.reduce_eq_fold_single FloatOps.maximumf _ _ reducesTo_S320x320x320_S320x320_d2 red3 h_S_]
  show Finset.fold max Wninf (fun k : Fin 320 => val_main_v78 (F := Ideal) x0 x1 (red3.lift (ix2 i j) k)) Finset.univ = _
  refine congrArg (fun f => Finset.fold max Wninf f (Finset.univ : Finset (Fin 320))) (funext fun (k : Fin 320) => ?_)
  have hl := lift3 i j k
  rw [hl]
  exact v78_at x0 x1 i j (⟨k.val, k.isLt⟩ : Fin 320)

/-- The hard minimum of (i, j): over all k at once, from +∞. -/
theorem v87_at (x0 : A0) (x1 : A1) (i j : Fin 320) :
    val_main_v87 (F := Ideal) x0 x1 (ix2 i j)
      = Finset.univ.fold min Wpinf fun k : Fin 320 =>
          hardR (Dm x1 (ix2 i k)) (Dm x1 (ix2 i j)) (tw (fun k => Pm x0 (ix2 i k)) j k) := by
  unfold val_main_v87
  rw [Host.reduce_eq_fold_single FloatOps.minimumf _ _ reducesTo_S320x320x320_S320x320_d2 red3 h_S_]
  show Finset.fold min Wpinf (fun k : Fin 320 => val_main_v86 (F := Ideal) x0 x1 (red3.lift (ix2 i j) k)) Finset.univ = _
  refine congrArg (fun f => Finset.fold min Wpinf f (Finset.univ : Finset (Fin 320))) (funext fun (k : Fin 320) => ?_)
  have hl := lift3 i j k
  rw [hl]
  exact v86_at x0 x1 i j (⟨k.val, k.isLt⟩ : Fin 320)

/-- The matrix the reference sums: at (i, j), row i's weighted pair loss at j. -/
theorem v99_at (x0 : A0) (x1 : A1) (i j : Fin 320) :
    val_main_v99 (F := Ideal) x0 x1 (ix2 i j)
      = rowR (fun k => Dm x1 (ix2 i k)) (fun k => Pm x0 (ix2 i k)) j := by
  rw [val_main_v99_apply, val_main_v98_apply, val_main_v97_apply, val_main_v96_apply, val_main_v95_apply, val_main_v93_apply,
    val_main_v89_apply, val_main_v92_apply, val_main_v91_apply, v79_at, v87_at]
  rfl

/-- The reference's numerator: zero plus the sum over all (i, j). -/
theorem num_eq (x0 : A0) (x1 : A1) (z : S_.Idx) :
    val_main_v100 (F := Ideal) x0 x1 z
      = W0 + ∑ i : Fin 320, ∑ j : Fin 320, rowR (fun k => Dm x1 (ix2 i k)) (fun k => Pm x0 (ix2 i k)) j := by
  rw [val_main_v100_apply, sum_idx2]
  refine congrArg (fun y : EReal => W0 + y) (Finset.sum_congr rfl fun i _ => Finset.sum_congr rfl fun j _ => ?_)
  exact v99_at x0 x1 i j

end Cert.ReferenceIdeal.RefValue
end
-- ==== Proof.Bridge.lean ====
import proofs.«150024_j12395275616913_2_alg».proof.Proof.KernelValue
import proofs.«150024_j12395275616913_2_alg».proof.Proof.Prefix
import proofs.«150024_j12395275616913_2_alg».proof.Proof.RefRead

/-!
The bridge: row by row the kernel's three-stretch, mask-on-the-difference arrangement and the reference's all-at-once,
mask-on-the-hinge arrangement give one number, so the numerators agree; the denominators are the same sum of the same pair weights.
-/

set_option maxRecDepth 16384

noncomputable section

namespace Cert.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.TileOut ValueIdx Cert.Triplet

variable (m : (ℓ : Loc nD τ sig) → Buf (Elt Ideal) ℓ)

open Cert.ReferenceIdeal.Read Cert.ReferenceIdeal.RefValue in
/-- A row's sum over its pairs is the same in the two arrangements: the matrices the region finds are the reference's
    distances and pair weights, and the pair weights lie in [0, 1]. -/
theorem rowSum_eq (c : Dev nD) (i : Fin 320) :
    rowSum m c i
      = ∑ j : Fin 320, rowR (fun k => Dm (m ((c.tc : Thread nD τ).loc main_arg1)) (ix2 i k))
          (fun k => Pm (m ((c.tc : Thread nD τ).loc main_arg0)) (ix2 i k)) j := by
  unfold rowSum
  rw [Cert.KernelIdeal.Prefix.pw_same m c, Cert.KernelIdeal.Prefix.dist_same m c]
  refine Finset.sum_congr rfl fun j _ => ?_
  exact rowK_eq_rowR _ _ (fun k => pw_bounds (m ((c.tc : Thread nD τ).loc main_arg0)) (ix2 i k)) j

open Cert.ReferenceIdeal.Read Cert.ReferenceIdeal.RefValue in
/-- THE TWO RESULTS ARE ONE: what the kernel's @main returns is the reference's result term at the same arguments. -/
theorem loss_eq (c : Dev nD) :
    lossK ((dats m 0 c).arrAt 2 cfg0.N) (V m c main_v33)
      = val_main_v105 (F := Ideal) (m ((c.tc : Thread nD τ).loc main_arg0)) (m ((c.tc : Thread nD τ).loc main_arg1)) := by
  have hn : (addf (fun i => shapeCast S_ (extractStridedSlice S1x1 ![0, 0] ((dats m 0 c).arrAt 2 cfg0.N) slices_S16x128_S1x1_0_0) shapeCasts_S1x1_S_ i)
        (fun i => shapeCast S_ (extractStridedSlice S1x1 ![8, 0] ((dats m 0 c).arrAt 2 cfg0.N) slices_S16x128_S1x1_8_0) shapeCasts_S1x1_S_ i) : FVec Ideal S_ .f32)
      = val_main_v100 (F := Ideal) (m ((c.tc : Thread nD τ).loc main_arg0)) (m ((c.tc : Thread nD τ).loc main_arg1)) := by
    funext z
    rw [kernel_num m c z, num_eq]
    exact congrArg (fun y : EReal => W0 + y) (Finset.sum_congr rfl fun i _ => rowSum_eq m c i)
  unfold lossK
  rw [hn, Cert.KernelIdeal.Prefix.pw_same m c]
  rfl

end Cert.Bridge
end
-- ==== Proof.lean ====
/-
  The triplet loss with soft weights over 320 embeddings, computed two ways, is one number on the extended reals.

  Both programs build, by the same host operations, the matrix D of pairwise distances of the normalized embeddings and
  the matrix P of pair weights 1 / (1 + e^z) of the averaged source distances. For an anchor i and a pair (j, k) the
  difference is D i k - D i j, the hinge max (margin - difference) 0, the triplet weight P i j · (1 - P i k). The
  reference masks on the hinge (0 < hinge ≤ margin; hinge > margin), multiplies the mask in as a number, takes for
  each (i, j) the maximum over all k from -∞ and the minimum from +∞, combines them into the pair's loss, weights it
  by P i j and sums over all (i, j). The kernel masks on the difference (0 ≤ difference < margin; difference < 0), keeps
  the weight by a selection, takes the maximum and minimum over k in three stretches of 128, 128 and 64 columns from a
  running value that starts at 0 and +∞, and sums 32 anchor rows per grid step into the corner of a per-core accumulator
  block, five steps per core; the host adds the two cores' corners. The two maskings agree for EVERY extended-real
  difference (the margin is a nonnegative real); the running maximum started at 0 is the maximum from -∞ because every
  semihard term is nonnegative, the pair weights lying in [0, 1] for every z; regrouping the sum needs only that
  addition on the extended reals is commutative and associative. So no finiteness of the inputs is used.
-/
import proofs.«150024_j12395275616913_2_alg».proof.Defs
import proofs.«150024_j12395275616913_2_alg».proof.Proof.Gen.Kernel
import proofs.«150024_j12395275616913_2_alg».proof.Proof.Gen.Kernel.Skeleton
import proofs.«150024_j12395275616913_2_alg».proof.Proof.Gen.Kernel.Launch
import proofs.«150024_j12395275616913_2_alg».proof.Proof.Gen.Kernel.Points
import proofs.«150024_j12395275616913_2_alg».proof.Proof.Gen.Kernel.Frame
import proofs.«150024_j12395275616913_2_alg».proof.Proof.Gen.KernelIdeal
import proofs.«150024_j12395275616913_2_alg».proof.Proof.Gen.KernelIdeal.Skeleton
import proofs.«150024_j12395275616913_2_alg».proof.Proof.Gen.KernelIdeal.Launch
import proofs.«150024_j12395275616913_2_alg».proof.Proof.Gen.KernelIdeal.Points
import proofs.«150024_j12395275616913_2_alg».proof.Proof.Gen.KernelIdeal.Frame
import proofs.«150024_j12395275616913_2_alg».proof.Proof.Gen.ReferenceIdeal
import proofs.«150024_j12395275616913_2_alg».proof.Proof.Gen.Pre_finite_inputs
import proofs.«150024_j12395275616913_2_alg».proof.Proof.Gen.ReferenceIdeal.Run
import proofs.«150024_j12395275616913_2_alg».proof.Proof.Gen.ReferenceIdeal.Read
import proofs.«150024_j12395275616913_2_alg».proof.Proof.Bridge
import Idealize.ShloMosaic.Adequacy
import Idealize.ShloMosaic.Init

set_option maxRecDepth 16384

noncomputable section

namespace Cert.Proof

open Idealize.ShloMosaic Idealize.SL.Sem

/-- The kernel's program runs and keeps its arguments. -/
theorem frame_k : Cert.frame_Kernel := fun m ρ _ => Cert.Kernel.Gen.frame m ρ
/-- So does its reading at the extended reals. -/
theorem frame_ki : Cert.frame_KernelIdeal := fun m ρ _ => Cert.KernelIdeal.Gen.frame m ρ
/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two programs, from memories that agree on the arguments, end with the same loss. -/
theorem algebraic : Cert.algebraic_KernelIdeal_ReferenceIdeal := by
  intro m ρ m' ρ' _ hagree
  refine ⟨fun c => Cert.KernelIdeal.TileOut.lossK ((Cert.KernelIdeal.Gen.dats m 0 c).arrAt 2 Cert.KernelIdeal.cfg0.N)
    (Cert.KernelIdeal.Gen.V m c Cert.KernelIdeal.main_v33), ?_, ?_⟩
  · refine (θ_run Cert.KernelIdeal.defs _ _).mono (fun r h c => ⟨?_, ?_, ?_⟩) (Cert.KernelIdeal.Gen.run_main m ρ)
    · exact ((h c).2 Cert.KernelIdeal.main_v65 (Pipeline.mem_restRefs_of Cert.KernelIdeal.main_v65 (by decide) (by decide))).trans
        (Cert.KernelIdeal.TileOut.tail_eq m c)
    · exact ((h c).2 Cert.KernelIdeal.main_arg0 (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v105_eq, (hagree c).1, (hagree c).2]
    exact (Cert.Bridge.loss_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
